-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S32x64 : Shape := ⟨2, ![32, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S2x1600000 : Shape := ⟨2, ![2, 1600000]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S64x1 .f32) (main_arg8 : FVec F S1 .f32) (main_arg9 : FVec F S64x1 .f32) (main_v33 : IVec S_ 1) : IVec S_ 1 :=
  let main_v34 : FVec F S64x1 .f32 := Host.absf main_arg7
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S64x1 .f32 := Host.absf main_arg9
  let main_cst_16 : FVec F S_ .f32 := constant S_ .f32 0x7F800000#32
  let main_v45 : FVec F S64x1 .f32 := broadcastInDim S64x1 ![] bcast_S_S64x1 main_cst_16
  let main_v46 : IVec S64x1 1 := cmpf .olt main_v44 main_v45
  let main_c_17 : IVec S_ 1 := constantI S_ 1 1#1
  let main_v47 : IVec S_ 1 := (fun x v => Host.reduce IntOp.andi x v reducesTo_S64x1_S_d0_1 h_S_) main_v46 main_c_17
  let main_v48 : IVec S_ 1 := andi main_v43 main_v47
  main_v48

def fn_part1 {F : FTy → Type} [FloatOps F] (main_arg4 : FVec F S64x64 .f32) (main_arg5 : FVec F S64 .f32) (main_arg6 : FVec F S64x64 .f32) (main_arg7 : FVec F S64x1 .f32) (main_arg8 : FVec F S1 .f32) (main_arg9 : FVec F S64x1 .f32) (main_v13 : IVec S_ 1) (main_v16 : IVec S32x64 1) : IVec S_ 1 :=
  let main_c_5 : IVec S_ 1 := constantI S_ 1 1#1
  let main_v17 : IVec S_ 1 := (fun x v => Host.reduce IntOp.andi x v reducesTo_S32x64_S_d0_1 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_arg8 main_arg9 main_v33

def fn {F : FTy → Type} [FloatOps F] (main_arg0 : FVec F S100000x32 .f32) (main_arg1 : FVec F S32x64 .f32) (main_arg2 : FVec F S64 .f32) (main_arg3 : FVec F S32x64 .f32) (main_arg4 : FVec F S64x64 .f32) (main_arg5 : FVec F S64 .f32) (main_arg6 : FVec F S64x64 .f32) (main_arg7 : FVec F S64x1 .f32) (main_arg8 : FVec F S1 .f32) (main_arg9 : FVec F S64x1 .f32) (main_arg10 : IVec S2x1600000 32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S32x64 .f32 := Host.absf main_arg1
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S32x64 .f32 := Host.absf main_arg3
  let main_cst_4 : FVec F S_ .f32 := constant S_ .f32 0x7F800000#32
  let main_v15 : FVec F S32x64 .f32 := broadcastInDim S32x64 ![] bcast_S_S32x64 main_cst_4
  let main_v16 : IVec S32x64 1 := cmpf .olt main_v14 main_v15
  fn_part1 (F := F) main_arg4 main_arg5 main_arg6 main_arg7 main_arg8 main_arg9 main_v13 main_v16
-- ==== Kernel.lean ====
abbrev S100000x32 : Shape := ⟨2, ![100000, 32]⟩
abbrev S32x64 : Shape := ⟨2, ![32, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x32 : Shape := ⟨2, ![1600000, 32]⟩
abbrev S1x64 : Shape := ⟨2, ![1, 64]⟩
abbrev S100000x64 : Shape := ⟨2, ![100000, 64]⟩
abbrev S10000x32 : Shape := ⟨2, ![10000, 32]⟩
abbrev S10000x64 : Shape := ⟨2, ![10000, 64]⟩
abbrev S1600000x64 : Shape := ⟨2, ![1600000, 64]⟩
abbrev S1x1 : Shape := ⟨2, ![1, 1]⟩
abbrev S100000x1 : Shape := ⟨2, ![100000, 1]⟩
abbrev S10000x1 : Shape := ⟨2, ![10000, 1]⟩
abbrev S100000 : Shape := ⟨1, ![100000]⟩

abbrev nBuf : Space → Nat
  | .hbm => 61
  | .vmem => 27
  | .smem => 0
  | _ => 0

abbrev bufTy : (tb : Table) → Fin (tcTables nBuf tb) → BufTy
  | .hbm, ⟨0, _⟩ => ⟨S100000x32, .f32⟩
  | .hbm, ⟨1, _⟩ => ⟨S32x64, .f32⟩
  | .hbm, ⟨2, _⟩ => ⟨S64, .f32⟩
  | .hbm, ⟨3, _⟩ => ⟨S32x64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64x1, .f32⟩
  | .hbm, ⟨8, _⟩ => ⟨S1, .f32⟩
  | .hbm, ⟨9, _⟩ => ⟨S64x1, .f32⟩
  | .hbm, ⟨10, _⟩ => ⟨S2x1600000, .i32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x32, .f32⟩
  | .hbm, ⟨24, _⟩ => ⟨S_, .f32⟩
  | .hbm, ⟨25, _⟩ => ⟨S100000x32, .f32⟩
  | .hbm, ⟨26, _⟩ => ⟨S1600000x1, .i32⟩
  | .hbm, ⟨27, _⟩ => ⟨S100000x32, .f32⟩
  | .hbm, ⟨28, _⟩ => ⟨S1x64, .f32⟩
  | .hbm, ⟨29, _⟩ => ⟨S100000x64, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x64, .f32⟩
  | .hbm, ⟨39, _⟩ => ⟨S_, .f32⟩
  | .hbm, ⟨40, _⟩ => ⟨S100000x64, .f32⟩
  | .hbm, ⟨41, _⟩ => ⟨S1600000x1, .i32⟩
  | .hbm, ⟨42, _⟩ => ⟨S100000x64, .f32⟩
  | .hbm, ⟨43, _⟩ => ⟨S1x64, .f32⟩
  | .hbm, ⟨44, _⟩ => ⟨S100000x64, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x64, .f32⟩
  | .hbm, ⟨54, _⟩ => ⟨S_, .f32⟩
  | .hbm, ⟨55, _⟩ => ⟨S100000x64, .f32⟩
  | .hbm, ⟨56, _⟩ => ⟨S1600000x1, .i32⟩
  | .hbm, ⟨57, _⟩ => ⟨S100000x64, .f32⟩
  | .hbm, ⟨58, _⟩ => ⟨S1x1, .f32⟩
  | .hbm, ⟨59, _⟩ => ⟨S100000x1, .f32⟩
  | .hbm, ⟨60, _⟩ => ⟨S100000, .f32⟩
  | .local _ .vmem, ⟨0, _⟩ => ⟨S10000x32, .f32⟩
  | .local _ .vmem, ⟨1, _⟩ => ⟨S10000x32, .f32⟩
  | .local _ .vmem, ⟨2, _⟩ => ⟨S10000x32, .f32⟩
  | .local _ .vmem, ⟨3, _⟩ => ⟨S10000x32, .f32⟩
  | .local _ .vmem, ⟨4, _⟩ => ⟨S32x64, .f32⟩
  | .local _ .vmem, ⟨5, _⟩ => ⟨S1x64, .f32⟩
  | .local _ .vmem, ⟨6, _⟩ => ⟨S32x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64x64, .f32⟩
  | .local _ .vmem, ⟨14, _⟩ => ⟨S1x64, .f32⟩
  | .local _ .vmem, ⟨15, _⟩ => ⟨S64x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S64x1, .f32⟩
  | .local _ .vmem, ⟨23, _⟩ => ⟨S1x1, .f32⟩
  | .local _ .vmem, ⟨24, _⟩ => ⟨S64x1, .f32⟩
  | .local _ .vmem, ⟨25, _⟩ => ⟨S10000x1, .f32⟩
  | .local _ .vmem, ⟨26, _⟩ => ⟨S10000x1, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c_1 : Ref sig .tc := ⟨.hbm, 30, rfl⟩
abbrev main_v16 : Ref sig .tc := ⟨.hbm, 31, rfl⟩
abbrev main_v17 : Ref sig .tc := ⟨.hbm, 32, rfl⟩
abbrev main_c_2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_4 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_6 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x32 : S_.BroadcastsInDim S100000x32 (![] : Fin 0 → Fin S100000x32.rank)
  shapeCasts_S64_S1x64 : S64.ShapeCasts S1x64
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  bcast_S_S100000x64 : S_.BroadcastsInDim S100000x64 (![] : Fin 0 → Fin S100000x64.rank)
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  shapeCasts_S1_S1x1 : S1.ShapeCasts S1x1
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  shapeCasts_S100000x1_S100000 : S100000x1.ShapeCasts S100000
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S10000x32_S32x64_S10000x64_1_0_0_1_n_n_wf : DotDims.WF S10000x32 S32x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  dot_S10000x64_S64x1_S10000x1_1_0_0_1_n_n_wf : DotDims.WF S10000x64 S64x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x32.size a ≤ S100000x32.size a
  hwx0_0 : ∀ i : grid0.Coords, EltTy.bits .f32 = 32 ∨ (Rect.block (s := S100000x32) S10000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x32.size a ≤ S100000x32.size a
  hwx0_1 : ∀ i : grid0.Coords, EltTy.bits .f32 = 32 ∨ (Rect.block (s := S100000x32) S10000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x64.size a ≤ S32x64.size a
  hwx0_2 : ∀ i : grid0.Coords, EltTy.bits .f32 = 32 ∨ (Rect.block (s := S32x64) S32x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x64.size a ≤ S32x64.size a
  hwx0_4 : ∀ i : grid0.Coords, EltTy.bits .f32 = 32 ∨ (Rect.block (s := S32x64) S32x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S100000x64.size a
  hwx1_5 : ∀ i : grid1.Coords, EltTy.bits .f32 = 32 ∨ (Rect.block (s := S100000x64) S10000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x1.size a ≤ S64x1.size a
  hwx2_2 : ∀ i : grid2.Coords, EltTy.bits .f32 = 32 ∨ (Rect.block (s := S64x1) S64x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x1.size a ≤ S64x1.size a
  hwx2_4 : ∀ i : grid2.Coords, EltTy.bits .f32 = 32 ∨ (Rect.block (s := S64x1) S64x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x1.size a ≤ S100000x1.size a
  hwx2_5 : ∀ i : grid2.Coords, EltTy.bits .f32 = 32 ∨ (Rect.block (s := S100000x1) S10000x1.size (cc2_transform_5 i) (hinb2_5 i)).WholeWords (EltTy.packing .f32)

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf

abbrev win0_0 : Pipeline.Window sig grid0 :=
  Pipeline.Window.ofSpec (Memref.whole main_v13) S10000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S32x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S32x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v25) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v37) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S64x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v38) S1x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S64x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v39) S10000x1.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x32 : Shape := ⟨2, ![100000, 32]⟩
abbrev S32x64 : Shape := ⟨2, ![32, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x32 : Shape := ⟨2, ![1600000, 32]⟩
abbrev S100000x64 : Shape := ⟨2, ![100000, 64]⟩
abbrev S1x64 : Shape := ⟨2, ![1, 64]⟩
abbrev S1600000x64 : Shape := ⟨2, ![1600000, 64]⟩
abbrev S100000x1 : Shape := ⟨2, ![100000, 1]⟩
abbrev S1x1 : Shape := ⟨2, ![1, 1]⟩
abbrev S100000 : Shape := ⟨1, ![100000]⟩

abbrev nBuf : Space → Nat
  | .hbm => 87
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S32x64, .f32⟩
  | .hbm, ⟨2, _⟩ => ⟨S64, .f32⟩
  | .hbm, ⟨3, _⟩ => ⟨S32x64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64x1, .f32⟩
  | .hbm, ⟨8, _⟩ => ⟨S1, .f32⟩
  | .hbm, ⟨9, _⟩ => ⟨S64x1, .f32⟩
  | .hbm, ⟨10, _⟩ => ⟨S2x1600000, .i32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x32, .f32⟩
  | .hbm, ⟨24, _⟩ => ⟨S_, .f32⟩
  | .hbm, ⟨25, _⟩ => ⟨S100000x32, .f32⟩
  | .hbm, ⟨26, _⟩ => ⟨S1600000x1, .i32⟩
  | .hbm, ⟨27, _⟩ => ⟨S100000x32, .f32⟩
  | .hbm, ⟨28, _⟩ => ⟨S100000x64, .f32⟩
  | .hbm, ⟨29, _⟩ => ⟨S1x64, .f32⟩
  | .hbm, ⟨30, _⟩ => ⟨S100000x64, .f32⟩
  | .hbm, ⟨31, _⟩ => ⟨S100000x64, .f32⟩
  | .hbm, ⟨32, _⟩ => ⟨S100000x64, .f32⟩
  | .hbm, ⟨33, _⟩ => ⟨S100000x64, .f32⟩
  | .hbm, ⟨34, _⟩ => ⟨S_, .f32⟩
  | .hbm, ⟨35, _⟩ => ⟨S100000x64, .f32⟩
  | .hbm, ⟨36, _⟩ => ⟨S100000x64, .f32⟩
  | .hbm, ⟨37, _⟩ => ⟨S1x1600000, .i32⟩
  | .hbm, ⟨38, _⟩ => ⟨S1600000, .i32⟩
  | .hbm, ⟨39, _⟩ => ⟨S1x1600000, .i32⟩
  | .hbm, ⟨40, _⟩ => ⟨S1600000, .i32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x64, .f32⟩
  | .hbm, ⟨50, _⟩ => ⟨S_, .f32⟩
  | .hbm, ⟨51, _⟩ => ⟨S100000x64, .f32⟩
  | .hbm, ⟨52, _⟩ => ⟨S1600000x1, .i32⟩
  | .hbm, ⟨53, _⟩ => ⟨S100000x64, .f32⟩
  | .hbm, ⟨54, _⟩ => ⟨S100000x64, .f32⟩
  | .hbm, ⟨55, _⟩ => ⟨S1x64, .f32⟩
  | .hbm, ⟨56, _⟩ => ⟨S100000x64, .f32⟩
  | .hbm, ⟨57, _⟩ => ⟨S100000x64, .f32⟩
  | .hbm, ⟨58, _⟩ => ⟨S100000x64, .f32⟩
  | .hbm, ⟨59, _⟩ => ⟨S100000x64, .f32⟩
  | .hbm, ⟨60, _⟩ => ⟨S_, .f32⟩
  | .hbm, ⟨61, _⟩ => ⟨S100000x64, .f32⟩
  | .hbm, ⟨62, _⟩ => ⟨S100000x64, .f32⟩
  | .hbm, ⟨63, _⟩ => ⟨S1x1600000, .i32⟩
  | .hbm, ⟨64, _⟩ => ⟨S1600000, .i32⟩
  | .hbm, ⟨65, _⟩ => ⟨S1x1600000, .i32⟩
  | .hbm, ⟨66, _⟩ => ⟨S1600000, .i32⟩
  | .hbm, ⟨67, _⟩ => ⟨S_, .i32⟩
  | .hbm, ⟨68, _⟩ => ⟨S1600000, .i32⟩
  | .hbm, ⟨69, _⟩ => ⟨S1600000, .i1⟩
  | .hbm, ⟨70, _⟩ => ⟨S_, .i32⟩
  | .hbm, ⟨71, _⟩ => ⟨S1600000, .i32⟩
  | .hbm, ⟨72, _⟩ => ⟨S1600000, .i32⟩
  | .hbm, ⟨73, _⟩ => ⟨S1600000, .i32⟩
  | .hbm, ⟨74, _⟩ => ⟨S1600000x1, .i32⟩
  | .hbm, ⟨75, _⟩ => ⟨S1600000x64, .f32⟩
  | .hbm, ⟨76, _⟩ => ⟨S_, .f32⟩
  | .hbm, ⟨77, _⟩ => ⟨S100000x64, .f32⟩
  | .hbm, ⟨78, _⟩ => ⟨S1600000x1, .i32⟩
  | .hbm, ⟨79, _⟩ => ⟨S100000x64, .f32⟩
  | .hbm, ⟨80, _⟩ => ⟨S100000x1, .f32⟩
  | .hbm, ⟨81, _⟩ => ⟨S1x1, .f32⟩
  | .hbm, ⟨82, _⟩ => ⟨S100000x1, .f32⟩
  | .hbm, ⟨83, _⟩ => ⟨S100000x1, .f32⟩
  | .hbm, ⟨84, _⟩ => ⟨S100000x1, .f32⟩
  | .hbm, ⟨85, _⟩ => ⟨S100000x1, .f32⟩
  | .hbm, ⟨86, _⟩ => ⟨S100000, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_call0_cst : Ref sig .tc := ⟨.hbm, 34, rfl⟩
abbrev main_call0_v0 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_1 : Ref sig .tc := ⟨.hbm, 41, rfl⟩
abbrev main_v25 : Ref sig .tc := ⟨.hbm, 42, rfl⟩
abbrev main_v26 : Ref sig .tc := ⟨.hbm, 43, rfl⟩
abbrev main_c_2 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_3 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_call1_cst : Ref sig .tc := ⟨.hbm, 60, rfl⟩
abbrev main_call1_v0 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_4 : Ref sig .tc := ⟨.hbm, 67, rfl⟩
abbrev main_v46 : Ref sig .tc := ⟨.hbm, 68, rfl⟩
abbrev main_v47 : Ref sig .tc := ⟨.hbm, 69, rfl⟩
abbrev main_c_5 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_6 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x32 : S_.BroadcastsInDim S100000x32 (![] : Fin 0 → Fin S100000x32.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x64_S100000x64_1_0_0_1_n_n_wf : DotDims.WF S100000x32 S32x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x1_S100000x1_1_0_0_1_n_n_wf : DotDims.WF S100000x64 S64x1 S100000x1 [1] [0] [0] [1] [] []

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.KernelRun.lean ====
/-
  The idealized kernel's run with its final buffers NAMED.  @main is seven segments: four stretches of host
  operations around three launches.  The contents of every unscoped buffer at each boundary are a fold from
  the launch memory (a stretch applies its operations, a launch replaces its arrays by what its write-backs
  leave); the run below ends with every unscoped buffer at the last value of that fold.  The frame states
  only that the arguments are unchanged there; the value needs the result buffer as well, so the same launch
  over the same segments is read with the whole final valuation as its post.
-/
import proofs.«139434_j40209483825155_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized kernel's @main terminates without a fault, and in every final state
    each unscoped buffer holds the last value of the fold through @main's segments. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- The run with the result and the arguments named: the result buffer at the fold's last value, each argument as
    launched. -/
theorem run_named : θ_run defs (onTc (τ := τ) (main (F := F))) ⟨m, fun _ => 0, ρ⟩ (fun r => ∀ c : Dev nD,
      r.2.mem ((c.tc : Thread nD τ).loc main_v40) = W7 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
      ⟨h c _ (mem_uc main_v40 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c)⟩)
    (run_all m ρ)

end Cert.KernelIdeal.RunValue

end
-- ==== Proof.LibDenseStep.lean ====
/-
  The dense step of one graph-convolution layer, as one function of whole arrays over the extended reals.

  For an M×K matrix of aggregated neighbour features `agg`, an M×K matrix of node features `feat`, two K×N weight
  matrices and a 1×N bias row, entry (p, q) of the result is
      act ( ∑ₖ agg(p,k)·wrel(k,q)  +  ∑ₖ feat(p,k)·wroot(k,q)  +  b(0,q) ),
  where `act` is either the identity or the maximum with zero.  The kernel adds the two products first and the bias
  last; the reference adds the bias to the first product and the second product last.  Addition of extended reals is
  commutative and associative (also at the infinities), so the two orders agree with no finiteness assumption.
-/
import Idealize.ShloMosaic.PureOps.Ideal.Laws
import Idealize.ShloMosaic.Lib.ValueIdx

noncomputable section

namespace Cert.Dense

open Idealize.ShloMosaic Idealize.ShloMosaic.ValueIdx
open scoped BigOperators

variable {M K N : ℕ}

/-- The activation: the maximum with the zero word's value, or nothing. The zero word is never evaluated: both programs
    compare against the same word. -/
def act (relu : Bool) (y : Ideal .f32) : Ideal .f32 :=
  if relu then max y (Ideal.ofBits .f32 0x00000000#32) else y

/-- Entry (p, q) of the dense step, the products first and the bias last. -/
def entry (relu : Bool) (agg feat : FVec Ideal ⟨2, ![M, K]⟩ .f32) (wrel wroot : FVec Ideal ⟨2, ![K, N]⟩ .f32)
    (b : FVec Ideal ⟨2, ![1, N]⟩ .f32) (p : Fin M) (q : Fin N) : Ideal .f32 :=
  act relu ((∑ k : Fin K, agg (ix2 p k) * wrel (ix2 k q)) + (∑ k : Fin K, feat (ix2 p k) * wroot (ix2 k q)) + b (ix2 0 q))

/-- The dense step as a whole M×N array. -/
def dense (relu : Bool) (agg feat : FVec Ideal ⟨2, ![M, K]⟩ .f32) (wrel wroot : FVec Ideal ⟨2, ![K, N]⟩ .f32)
    (b : FVec Ideal ⟨2, ![1, N]⟩ .f32) : FVec Ideal ⟨2, ![M, N]⟩ .f32 :=
  fun j => entry relu agg feat wrel wroot b (j 0) (j 1)

theorem dense_apply (relu : Bool) (agg feat : FVec Ideal ⟨2, ![M, K]⟩ .f32) (wrel wroot : FVec Ideal ⟨2, ![K, N]⟩ .f32)
    (b : FVec Ideal ⟨2, ![1, N]⟩ .f32) (p : Fin M) (q : Fin N) :
    dense relu agg feat wrel wroot b (ix2 p q) = entry relu agg feat wrel wroot b p q := rfl

/-- The reference's order of the three summands: bias after the first product, the second product last. -/
theorem entry_ref_order (relu : Bool) (agg feat : FVec Ideal ⟨2, ![M, K]⟩ .f32) (wrel wroot : FVec Ideal ⟨2, ![K, N]⟩ .f32)
    (b : FVec Ideal ⟨2, ![1, N]⟩ .f32) (p : Fin M) (q : Fin N) :
    act relu ((∑ k : Fin K, agg (ix2 p k) * wrel (ix2 k q)) + b (ix2 0 q) + (∑ k : Fin K, feat (ix2 p k) * wroot (ix2 k q)))
      = entry relu agg feat wrel wroot b p q := by
  unfold entry
  rw [add_right_comm]

/-- Entry (p, q) depends only on row p of the two feature matrices, column q of the two weight matrices and entry q of
    the bias: two dense steps whose operands agree there agree at the entry (the operands may sit in arrays of other extents). -/
theorem entry_congr {M' N' : ℕ} (relu : Bool) (agg feat : FVec Ideal ⟨2, ![M, K]⟩ .f32) (wrel wroot : FVec Ideal ⟨2, ![K, N]⟩ .f32)
    (b : FVec Ideal ⟨2, ![1, N]⟩ .f32) (agg' feat' : FVec Ideal ⟨2, ![M', K]⟩ .f32) (wrel' wroot' : FVec Ideal ⟨2, ![K, N']⟩ .f32)
    (b' : FVec Ideal ⟨2, ![1, N']⟩ .f32) (p : Fin M) (q : Fin N) (p' : Fin M') (q' : Fin N')
    (h0 : ∀ k : Fin K, agg (ix2 p k) = agg' (ix2 p' k)) (h1 : ∀ k : Fin K, feat (ix2 p k) = feat' (ix2 p' k))
    (h2 : ∀ k : Fin K, wrel (ix2 k q) = wrel' (ix2 k q')) (h4 : ∀ k : Fin K, wroot (ix2 k q) = wroot' (ix2 k q'))
    (h3 : b (ix2 0 q) = b' (ix2 0 q')) :
    entry relu agg feat wrel wroot b p q = entry relu agg' feat' wrel' wroot' b' p' q' := by
  unfold entry
  simp only [h0, h1, h2, h4, h3]

end Cert.Dense

end
-- ==== Proof.LibPlainDot.lean ====
/-
  A plain matrix product over the extended reals, read at one entry.

  For an M×K matrix `l` and a K×N matrix `r` the product contracted over `l`'s columns and `r`'s rows has, at
  entry (p, q), the value ∑ₖ l(p,k)·r(k,q). This holds both for the vector unit's product into a zero accumulator
  and for the host's `dot_general`, so the two are the same sum; the only work is to identify the contraction's
  one-axis index type with `Fin K` and the operand indices with (p,k) and (k,q).
-/
import Idealize.ShloMosaic.PureOps.Ideal.Laws
import Idealize.ShloMosaic.Lib.ValueIdx

noncomputable section

namespace Cert.LibPlainDot

open Idealize.ShloMosaic Idealize.ShloMosaic.ValueIdx
open scoped BigOperators

variable {M K N : ℕ} {φ₁ φ₂ : FTy}

/-- The sum over the contraction index of a plain M×K by K×N product is the sum over `k : Fin K` of the left operand
    at (row, k) times the right operand at (k, column). -/
theorem plain_sum (l : FVec Ideal ⟨2, ![M, K]⟩ φ₁) (r : FVec Ideal ⟨2, ![K, N]⟩ φ₂) (p : Fin M) (q : Fin N) :
    (∑ c : (DotDims.plain M K N).contr.Idx,
        l ((DotDims.plain M K N).lhsIdx (ix2 p q) c) * r ((DotDims.plain M K N).rhsIdx (ix2 p q) c))
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl (ix2 p q) _).trans hk
      | ⟨1, _⟩ => rfl)
  rw [el, er]

/-- The vector unit's product into the zero accumulator, for any dimension record that is the plain one. -/
theorem matmul_zero_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  subst hd
  exact (Ideal.matmul_constant_zero_apply _ prec l r (ix2 p q)).trans (plain_sum l r p q)

/-- The host's `dot_general`, for any dimension record that is the plain one. -/
theorem dotGeneral_apply (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (p : Fin M) (q : Fin N) :
    FloatOps.dotGeneral d prec sched l r (ix2 p q) = ∑ k : Fin K, l (ix2 p k) * r (ix2 k q) := by
  subst hd
  exact (Ideal.dotGeneral_apply _ prec sched l r (ix2 p q)).trans (plain_sum l r p q)

end Cert.LibPlainDot

end
-- ==== Proof.Region0.lean ====
/-
  Launch 0 of the idealized kernel (the first layer's dense step, 32 features to 64): what its output array holds when the launch returns, as one function of
  the arrays it was launched on.

  The grid has ten points; point t stages rows 10000·t … 10000·t + 9999 of the aggregated features and of the node
  features, the two 32×64 weight matrices and the 1×64 bias row whole, and writes back rows 10000·t … of the output.
  The body multiplies each feature block by its weight matrix into a zero accumulator, adds the two products, adds the
  bias row to every row, takes the maximum with zero and stores the block.  Over the extended reals a change of float format is the identity and a
  product into a zero accumulator is the plain sum over the contracted axis, so the body's block is the dense step of its
  staged blocks; entry (p, q) of the dense step reads only row p of the features, so block t of the dense step of the
  whole arrays is the dense step of the blocks at t; the ten blocks tile the 100000 rows, so the output array ends as
  the dense step of the whole operand arrays.
-/
import proofs.«139434_j40209483825155_1_alg».proof.Proof.Gen.KernelIdeal.Frame
import proofs.«139434_j40209483825155_1_alg».proof.Proof.LibDenseStep
import proofs.«139434_j40209483825155_1_alg».proof.Proof.LibPlainDot
import Idealize.ShloMosaic.Lib.Pipeline.Value
import Idealize.ShloMosaic.Lib.ValueLayout
import Idealize.ShloMosaic.Lib.ValueIdx

set_option maxRecDepth 16384

noncomputable section

namespace Cert.KernelIdeal.Region0

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Dense

/-- Every access of the body starts at the origin of its buffer. -/
theorem hz : (![0, 0] : Fin 2 → Nat) = fun _ => 0 := funext fun a => by fin_cases a <;> rfl

/-- The body's arithmetic at entry (p, q) of the block: the two products as sums over the contracted axis, the bias of
    column q, the maximum with zero. -/
theorem pay_apply (x0 x1 : Vec Ideal S10000x32 .f32) (x2 x4 : Vec Ideal S32x64 .f32) (x3 : Vec Ideal S1x64 .f32)
    (p : Fin 10000) (q : Fin 64) :
    k0_pay1 (F := Ideal) x0 x1 x2 x4 x3 (ix2 p q) = entry true x0 x1 x2 x4 x3 p q := by
  unfold k0_pay1 entry act
  simp only [shapeCast_self]
  rw [if_pos trivial]
  have hd : dot_S10000x32_S32x64_S10000x64_1_0_0_1_n_n = DotDims.plain 10000 32 64 := rfl
  have h1 := Cert.LibPlainDot.matmul_zero_apply dot_S10000x32_S32x64_S10000x64_1_0_0_1_n_n hd none
    (truncf .bf16 x0 bitsLt_bf16_f32) (truncf .bf16 x2 bitsLt_bf16_f32) p q
  have h2 := Cert.LibPlainDot.matmul_zero_apply dot_S10000x32_S32x64_S10000x64_1_0_0_1_n_n hd none
    (truncf .bf16 x1 bitsLt_bf16_f32) (truncf .bf16 x4 bitsLt_bf16_f32) p q
  have h3 : broadcastTo S10000x64 x3 broadcasts_S1x64_S10000x64 (ix2 p q) = x3 (ix2 0 q) :=
    broadcastTo_apply x3 _ (ix2 p q) (ix2 0 q) (fun a => by match a with | ⟨0, _⟩ => rfl | ⟨1, _⟩ => rfl)
  rw [maximumf_apply, addf_apply, addf_apply, broadcast_apply, h3]
  exact congrArg₂ max (congrArg₂ (· + ·) (congrArg₂ (· + ·) h1 h2) rfl) rfl

/-- The body's payload of whole blocks is the dense step of the blocks. -/
theorem pay_eq (x0 x1 : Vec Ideal S10000x32 .f32) (x2 x4 : Vec Ideal S32x64 .f32) (x3 : Vec Ideal S1x64 .f32) :
    k0_pay1 (F := Ideal) x0 x1 x2 x4 x3 = dense true x0 x1 x2 x4 x3 := by
  funext j
  obtain ⟨p, q, rfl⟩ : ∃ (p : Fin 10000) (q : Fin 64), j = ix2 p q := ⟨j 0, j 1, eq_ix2 j⟩
  rw [pay_apply, dense_apply]

variable (V : (c : Dev nD) → (b : Ref sig .tc) → Buf (Elt Ideal) ((c : Thread nD τ).loc b))

/-- The launch's output array as one function of its operand arrays as the launch finds them: the dense step of the
    aggregated features, the node features, the two weight matrices and the bias row. -/
def G (c : Dev nD) : S100000x64.Idx → Elt Ideal .f32 :=
  dense true (V c main_v13 : S100000x32.Idx → Elt Ideal .f32) (V c main_arg0 : S100000x32.Idx → Elt Ideal .f32)
    (V c main_arg1 : S32x64.Idx → Elt Ideal .f32) (V c main_arg3 : S32x64.Idx → Elt Ideal .f32) (V c main_v14 : S1x64.Idx → Elt Ideal .f32)

/-- The printed index maps over the grid: the two feature windows move with the output window along the rows and
    stay at column block 0; the weights and the bias stay at block (0, 0); the output's row block is at most 9. -/
theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) ≤ 9 :=
  (by decide +kernel : ∀ t : Fin grid0.N, _)

/-- Every row block of the output is some point's. -/
theorem idx_onto : ∀ q0 : Fin 10, ∃ t : Fin cfg0.N, win0_5.index t = ![q0.val, 0] :=
  (by decide +kernel : ∀ q0 : Fin 10, ∃ t : Fin grid0.N, win0_5.index t = ![q0.val, 0])

/-- What point `t` writes back is block `t` of the dense step of the whole operand arrays: an entry of the dense step
    reads row p of the features, and row p of block `t` is row 10000·t + p of the array. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S10000x32) hz, View.ld_unit_zero (S := S32x64) hz, View.ld_unit_zero (S := S1x64) hz]
  rw [pay_eq]
  obtain ⟨e00, e01, e10, e11, e20, e21, e30, e31, e40, e41, e51, e5⟩ := idx_facts t
  funext j
  show dense true (iblk0 V c 0 t : Vec Ideal S10000x32 .f32) (iblk0 V c 1 t : Vec Ideal S10000x32 .f32)
      (iblk0 V c 2 t : Vec Ideal S32x64 .f32) (iblk0 V c 4 t : Vec Ideal S32x64 .f32) (iblk0 V c 3 t : Vec Ideal S1x64 .f32) (j : S10000x64.Idx)
    = G V c (((cfg0.win 5).blk t).view.emb j)
  have e1 : (j : S10000x64.Idx) = ix2 (j 0) (j 1) := eq_ix2 _
  have e2 : (((cfg0.win 5).blk t).view.emb j : S100000x64.Idx)
      = ix2 ((((cfg0.win 5).blk t).view.emb j) 0) ((((cfg0.win 5).blk t).view.emb j) 1) := eq_ix2 _
  refine (congrArg (dense true _ _ _ _ _) e1).trans (Eq.trans ?_ (congrArg (G V c) e2).symm)
  unfold G
  have hj0 : (j 0).val < 10000 := (j 0).isLt
  have hj1 : (j 1).val < 64 := (j 1).isLt
  refine entry_congr (M := 10000) (K := 32) (N := 64) (M' := 100000) (N' := 64) true _ _ _ _ _ _ _ _ _ _ (j 0) (j 1)
    ((((cfg0.win 5).blk t).view.emb j) 0) ((((cfg0.win 5).blk t).view.emb j) 1) (fun k => ?_) (fun k => ?_) (fun k => ?_) (fun k => ?_) ?_
  · show V c main_v13 (((cfg0.win 0).blk t).view.emb (ix2 (j 0) k)) = V c main_v13 (ix2 ((((cfg0.win 5).blk t).view.emb j) 0) k)
    refine congrArg (V c main_v13) (funext fun a => Fin.ext ?_)
    match a with
    | ⟨0, _⟩ => show win0_0.index t (0 : Fin 2) * 10000 + 1 * (j 0).val = win0_5.index t (0 : Fin 2) * 10000 + 1 * (j 0).val; omega
    | ⟨1, _⟩ => show win0_0.index t (1 : Fin 2) * 32 + 1 * k.val = k.val; omega
  · show V c main_arg0 (((cfg0.win 1).blk t).view.emb (ix2 (j 0) k)) = V c main_arg0 (ix2 ((((cfg0.win 5).blk t).view.emb j) 0) k)
    refine congrArg (V c main_arg0) (funext fun a => Fin.ext ?_)
    match a with
    | ⟨0, _⟩ => show win0_1.index t (0 : Fin 2) * 10000 + 1 * (j 0).val = win0_5.index t (0 : Fin 2) * 10000 + 1 * (j 0).val; omega
    | ⟨1, _⟩ => show win0_1.index t (1 : Fin 2) * 32 + 1 * k.val = k.val; omega
  · show V c main_arg1 (((cfg0.win 2).blk t).view.emb (ix2 k (j 1))) = V c main_arg1 (ix2 k ((((cfg0.win 5).blk t).view.emb j) 1))
    refine congrArg (V c main_arg1) (funext fun a => Fin.ext ?_)
    match a with
    | ⟨0, _⟩ => show win0_2.index t (0 : Fin 2) * 32 + 1 * k.val = k.val; omega
    | ⟨1, _⟩ => show win0_2.index t (1 : Fin 2) * 64 + 1 * (j 1).val = win0_5.index t (1 : Fin 2) * 64 + 1 * (j 1).val; omega
  · show V c main_arg3 (((cfg0.win 4).blk t).view.emb (ix2 k (j 1))) = V c main_arg3 (ix2 k ((((cfg0.win 5).blk t).view.emb j) 1))
    refine congrArg (V c main_arg3) (funext fun a => Fin.ext ?_)
    match a with
    | ⟨0, _⟩ => show win0_4.index t (0 : Fin 2) * 32 + 1 * k.val = k.val; omega
    | ⟨1, _⟩ => show win0_4.index t (1 : Fin 2) * 64 + 1 * (j 1).val = win0_5.index t (1 : Fin 2) * 64 + 1 * (j 1).val; omega
  · show V c main_v14 (((cfg0.win 3).blk t).view.emb (ix2 0 (j 1))) = V c main_v14 (ix2 0 ((((cfg0.win 5).blk t).view.emb j) 1))
    refine congrArg (V c main_v14) (funext fun a => Fin.ext ?_)
    match a with
    | ⟨0, _⟩ => show win0_3.index t (0 : Fin 2) * 1 + 1 * 0 = 0; omega
    | ⟨1, _⟩ => show win0_3.index t (1 : Fin 2) * 64 + 1 * (j 1).val = win0_5.index t (1 : Fin 2) * 64 + 1 * (j 1).val; omega

/-- An index of the output array lies in point `t`'s block iff each coordinate lies in the block's range on its axis. -/
theorem mem_blk (t : Fin cfg0.N) (i : S100000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v15).slice (win0_5.rect t)).set ↔ _
  rw [View.set_slice_whole, Rect.mem_set_unit]
  exact Iff.rfl

/-- Row `r` of the output is written back by the point whose block holds it, point `r / 10000`. -/
theorem cover (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  obtain ⟨t, ht⟩ := idx_onto ⟨(i 0).val / 10000, by omega⟩
  have q0 : win0_5.index t (0 : Fin 2) = (i 0).val / 10000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 10000 ≤ (i 0).val ∧ (i 0).val < win0_5.index t (0 : Fin 2) * 10000 + 10000; omega
  | ⟨1, _⟩ => show win0_5.index t (1 : Fin 2) * 64 ≤ (i 1).val ∧ (i 1).val < win0_5.index t (1 : Fin 2) * 64 + 64; omega

/-- The output array after the launch: the dense step of the operand arrays as the launch found them. -/
theorem final (c : Dev nD) : (dat0 V c).arrAt 5 cfg0.N = G V c :=
  (dat0 V c).arrAt_eq_of_cover 5 (G V c) (fun t _ => flushed_eq V c t) cover

end Cert.KernelIdeal.Region0

end
-- ==== Proof.Region1.lean ====
/-
  Launch 1 of the idealized kernel (the second layer's dense step, 64 features to 64): what its output array holds when the launch returns, as one function of
  the arrays it was launched on.

  The grid has ten points; point t stages rows 10000·t … 10000·t + 9999 of the aggregated features and of the node
  features, the two 64×64 weight matrices and the 1×64 bias row whole, and writes back rows 10000·t … of the output.
  The body multiplies each feature block by its weight matrix into a zero accumulator, adds the two products, adds the
  bias row to every row, takes the maximum with zero and stores the block.  Over the extended reals a change of float format is the identity and a
  product into a zero accumulator is the plain sum over the contracted axis, so the body's block is the dense step of its
  staged blocks; entry (p, q) of the dense step reads only row p of the features, so block t of the dense step of the
  whole arrays is the dense step of the blocks at t; the ten blocks tile the 100000 rows, so the output array ends as
  the dense step of the whole operand arrays.
-/
import proofs.«139434_j40209483825155_1_alg».proof.Proof.Gen.KernelIdeal.Frame
import proofs.«139434_j40209483825155_1_alg».proof.Proof.LibDenseStep
import proofs.«139434_j40209483825155_1_alg».proof.Proof.LibPlainDot
import Idealize.ShloMosaic.Lib.Pipeline.Value
import Idealize.ShloMosaic.Lib.ValueLayout
import Idealize.ShloMosaic.Lib.ValueIdx

set_option maxRecDepth 16384

noncomputable section

namespace Cert.KernelIdeal.Region1

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Dense

/-- Every access of the body starts at the origin of its buffer. -/
theorem hz : (![0, 0] : Fin 2 → Nat) = fun _ => 0 := funext fun a => by fin_cases a <;> rfl

/-- The body's arithmetic at entry (p, q) of the block: the two products as sums over the contracted axis, the bias of
    column q, the maximum with zero. -/
theorem pay_apply (x0 x1 : Vec Ideal S10000x64 .f32) (x2 x4 : Vec Ideal S64x64 .f32) (x3 : Vec Ideal S1x64 .f32)
    (p : Fin 10000) (q : Fin 64) :
    k1_pay1 (F := Ideal) x0 x1 x2 x4 x3 (ix2 p q) = entry true x0 x1 x2 x4 x3 p q := by
  unfold k1_pay1 entry act
  simp only [shapeCast_self]
  rw [if_pos trivial]
  have hd : dot_S10000x64_S64x64_S10000x64_1_0_0_1_n_n = DotDims.plain 10000 64 64 := rfl
  have h1 := Cert.LibPlainDot.matmul_zero_apply dot_S10000x64_S64x64_S10000x64_1_0_0_1_n_n hd none
    (truncf .bf16 x0 bitsLt_bf16_f32) (truncf .bf16 x2 bitsLt_bf16_f32) p q
  have h2 := Cert.LibPlainDot.matmul_zero_apply dot_S10000x64_S64x64_S10000x64_1_0_0_1_n_n hd none
    (truncf .bf16 x1 bitsLt_bf16_f32) (truncf .bf16 x4 bitsLt_bf16_f32) p q
  have h3 : broadcastTo S10000x64 x3 broadcasts_S1x64_S10000x64 (ix2 p q) = x3 (ix2 0 q) :=
    broadcastTo_apply x3 _ (ix2 p q) (ix2 0 q) (fun a => by match a with | ⟨0, _⟩ => rfl | ⟨1, _⟩ => rfl)
  rw [maximumf_apply, addf_apply, addf_apply, broadcast_apply, h3]
  exact congrArg₂ max (congrArg₂ (· + ·) (congrArg₂ (· + ·) h1 h2) rfl) rfl

/-- The body's payload of whole blocks is the dense step of the blocks. -/
theorem pay_eq (x0 x1 : Vec Ideal S10000x64 .f32) (x2 x4 : Vec Ideal S64x64 .f32) (x3 : Vec Ideal S1x64 .f32) :
    k1_pay1 (F := Ideal) x0 x1 x2 x4 x3 = dense true x0 x1 x2 x4 x3 := by
  funext j
  obtain ⟨p, q, rfl⟩ : ∃ (p : Fin 10000) (q : Fin 64), j = ix2 p q := ⟨j 0, j 1, eq_ix2 j⟩
  rw [pay_apply, dense_apply]

variable (V : (c : Dev nD) → (b : Ref sig .tc) → Buf (Elt Ideal) ((c : Thread nD τ).loc b))

/-- The launch's output array as one function of its operand arrays as the launch finds them: the dense step of the
    aggregated features, the node features, the two weight matrices and the bias row. -/
def G (c : Dev nD) : S100000x64.Idx → Elt Ideal .f32 :=
  dense true (V c main_v25 : S100000x64.Idx → Elt Ideal .f32) (V c main_v15 : S100000x64.Idx → Elt Ideal .f32)
    (V c main_arg4 : S64x64.Idx → Elt Ideal .f32) (V c main_arg6 : S64x64.Idx → Elt Ideal .f32) (V c main_v26 : S1x64.Idx → Elt Ideal .f32)

/-- The printed index maps over the grid: the two feature windows move with the output window along the rows and
    stay at column block 0; the weights and the bias stay at block (0, 0); the output's row block is at most 9. -/
theorem idx_facts : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0 ∧ win1_5.index t (0 : Fin 2) ≤ 9 :=
  (by decide +kernel : ∀ t : Fin grid1.N, _)

/-- Every row block of the output is some point's. -/
theorem idx_onto : ∀ q0 : Fin 10, ∃ t : Fin cfg1.N, win1_5.index t = ![q0.val, 0] :=
  (by decide +kernel : ∀ q0 : Fin 10, ∃ t : Fin grid1.N, win1_5.index t = ![q0.val, 0])

/-- What point `t` writes back is block `t` of the dense step of the whole operand arrays: an entry of the dense step
    reads row p of the features, and row p of block `t` is row 10000·t + p of the array. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S10000x64) hz, View.ld_unit_zero (S := S64x64) hz, View.ld_unit_zero (S := S1x64) hz]
  rw [pay_eq]
  obtain ⟨e00, e01, e10, e11, e20, e21, e30, e31, e40, e41, e51, e5⟩ := idx_facts t
  funext j
  show dense true (iblk1 V c 0 t : Vec Ideal S10000x64 .f32) (iblk1 V c 1 t : Vec Ideal S10000x64 .f32)
      (iblk1 V c 2 t : Vec Ideal S64x64 .f32) (iblk1 V c 4 t : Vec Ideal S64x64 .f32) (iblk1 V c 3 t : Vec Ideal S1x64 .f32) (j : S10000x64.Idx)
    = G V c (((cfg1.win 5).blk t).view.emb j)
  have e1 : (j : S10000x64.Idx) = ix2 (j 0) (j 1) := eq_ix2 _
  have e2 : (((cfg1.win 5).blk t).view.emb j : S100000x64.Idx)
      = ix2 ((((cfg1.win 5).blk t).view.emb j) 0) ((((cfg1.win 5).blk t).view.emb j) 1) := eq_ix2 _
  refine (congrArg (dense true _ _ _ _ _) e1).trans (Eq.trans ?_ (congrArg (G V c) e2).symm)
  unfold G
  have hj0 : (j 0).val < 10000 := (j 0).isLt
  have hj1 : (j 1).val < 64 := (j 1).isLt
  refine entry_congr (M := 10000) (K := 64) (N := 64) (M' := 100000) (N' := 64) true _ _ _ _ _ _ _ _ _ _ (j 0) (j 1)
    ((((cfg1.win 5).blk t).view.emb j) 0) ((((cfg1.win 5).blk t).view.emb j) 1) (fun k => ?_) (fun k => ?_) (fun k => ?_) (fun k => ?_) ?_
  · show V c main_v25 (((cfg1.win 0).blk t).view.emb (ix2 (j 0) k)) = V c main_v25 (ix2 ((((cfg1.win 5).blk t).view.emb j) 0) k)
    refine congrArg (V c main_v25) (funext fun a => Fin.ext ?_)
    match a with
    | ⟨0, _⟩ => show win1_0.index t (0 : Fin 2) * 10000 + 1 * (j 0).val = win1_5.index t (0 : Fin 2) * 10000 + 1 * (j 0).val; omega
    | ⟨1, _⟩ => show win1_0.index t (1 : Fin 2) * 64 + 1 * k.val = k.val; omega
  · show V c main_v15 (((cfg1.win 1).blk t).view.emb (ix2 (j 0) k)) = V c main_v15 (ix2 ((((cfg1.win 5).blk t).view.emb j) 0) k)
    refine congrArg (V c main_v15) (funext fun a => Fin.ext ?_)
    match a with
    | ⟨0, _⟩ => show win1_1.index t (0 : Fin 2) * 10000 + 1 * (j 0).val = win1_5.index t (0 : Fin 2) * 10000 + 1 * (j 0).val; omega
    | ⟨1, _⟩ => show win1_1.index t (1 : Fin 2) * 64 + 1 * k.val = k.val; omega
  · show V c main_arg4 (((cfg1.win 2).blk t).view.emb (ix2 k (j 1))) = V c main_arg4 (ix2 k ((((cfg1.win 5).blk t).view.emb j) 1))
    refine congrArg (V c main_arg4) (funext fun a => Fin.ext ?_)
    match a with
    | ⟨0, _⟩ => show win1_2.index t (0 : Fin 2) * 64 + 1 * k.val = k.val; omega
    | ⟨1, _⟩ => show win1_2.index t (1 : Fin 2) * 64 + 1 * (j 1).val = win1_5.index t (1 : Fin 2) * 64 + 1 * (j 1).val; omega
  · show V c main_arg6 (((cfg1.win 4).blk t).view.emb (ix2 k (j 1))) = V c main_arg6 (ix2 k ((((cfg1.win 5).blk t).view.emb j) 1))
    refine congrArg (V c main_arg6) (funext fun a => Fin.ext ?_)
    match a with
    | ⟨0, _⟩ => show win1_4.index t (0 : Fin 2) * 64 + 1 * k.val = k.val; omega
    | ⟨1, _⟩ => show win1_4.index t (1 : Fin 2) * 64 + 1 * (j 1).val = win1_5.index t (1 : Fin 2) * 64 + 1 * (j 1).val; omega
  · show V c main_v26 (((cfg1.win 3).blk t).view.emb (ix2 0 (j 1))) = V c main_v26 (ix2 0 ((((cfg1.win 5).blk t).view.emb j) 1))
    refine congrArg (V c main_v26) (funext fun a => Fin.ext ?_)
    match a with
    | ⟨0, _⟩ => show win1_3.index t (0 : Fin 2) * 1 + 1 * 0 = 0; omega
    | ⟨1, _⟩ => show win1_3.index t (1 : Fin 2) * 64 + 1 * (j 1).val = win1_5.index t (1 : Fin 2) * 64 + 1 * (j 1).val; omega

/-- An index of the output array lies in point `t`'s block iff each coordinate lies in the block's range on its axis. -/
theorem mem_blk (t : Fin cfg1.N) (i : S100000x64.Idx) :
    i ∈ ((cfg1.win 5).blk t).view.set ↔ ∀ a : Fin 2, win1_5.index t a * S10000x64.size a ≤ (i a).val ∧ (i a).val < win1_5.index t a * S10000x64.size a + S10000x64.size a := by
  show i ∈ ((View.whole main_v27).slice (win1_5.rect t)).set ↔ _
  rw [View.set_slice_whole, Rect.mem_set_unit]
  exact Iff.rfl

/-- Row `r` of the output is written back by the point whose block holds it, point `r / 10000`. -/
theorem cover (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  obtain ⟨t, ht⟩ := idx_onto ⟨(i 0).val / 10000, by omega⟩
  have q0 : win1_5.index t (0 : Fin 2) = (i 0).val / 10000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 10000 ≤ (i 0).val ∧ (i 0).val < win1_5.index t (0 : Fin 2) * 10000 + 10000; omega
  | ⟨1, _⟩ => show win1_5.index t (1 : Fin 2) * 64 ≤ (i 1).val ∧ (i 1).val < win1_5.index t (1 : Fin 2) * 64 + 64; omega

/-- The output array after the launch: the dense step of the operand arrays as the launch found them. -/
theorem final (c : Dev nD) : (dat1 V c).arrAt 5 cfg1.N = G V c :=
  (dat1 V c).arrAt_eq_of_cover 5 (G V c) (fun t _ => flushed_eq V c t) cover

end Cert.KernelIdeal.Region1

end
-- ==== Proof.Region2.lean ====
/-
  Launch 2 of the idealized kernel (the third layer's dense step, 64 features to 1, no activation): what its output array holds when the launch returns, as one function of
  the arrays it was launched on.

  The grid has ten points; point t stages rows 10000·t … 10000·t + 9999 of the aggregated features and of the node
  features, the two 64×1 weight matrices and the 1×1 bias row whole, and writes back rows 10000·t … of the output.
  The body multiplies each feature block by its weight matrix into a zero accumulator, adds the two products, adds the
  bias row to every row and stores the block.  Over the extended reals a change of float format is the identity and a
  product into a zero accumulator is the plain sum over the contracted axis, so the body's block is the dense step of its
  staged blocks; entry (p, q) of the dense step reads only row p of the features, so block t of the dense step of the
  whole arrays is the dense step of the blocks at t; the ten blocks tile the 100000 rows, so the output array ends as
  the dense step of the whole operand arrays.
-/
import proofs.«139434_j40209483825155_1_alg».proof.Proof.Gen.KernelIdeal.Frame
import proofs.«139434_j40209483825155_1_alg».proof.Proof.LibDenseStep
import proofs.«139434_j40209483825155_1_alg».proof.Proof.LibPlainDot
import Idealize.ShloMosaic.Lib.Pipeline.Value
import Idealize.ShloMosaic.Lib.ValueLayout
import Idealize.ShloMosaic.Lib.ValueIdx

set_option maxRecDepth 16384

noncomputable section

namespace Cert.KernelIdeal.Region2

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Dense

/-- Every access of the body starts at the origin of its buffer. -/
theorem hz : (![0, 0] : Fin 2 → Nat) = fun _ => 0 := funext fun a => by fin_cases a <;> rfl

/-- The body's arithmetic at entry (p, q) of the block: the two products as sums over the contracted axis, the bias of
    column q. -/
theorem pay_apply (x0 x1 : Vec Ideal S10000x64 .f32) (x2 x4 : Vec Ideal S64x1 .f32) (x3 : Vec Ideal S1x1 .f32)
    (p : Fin 10000) (q : Fin 1) :
    k2_pay1 (F := Ideal) x0 x1 x2 x4 x3 (ix2 p q) = entry false x0 x1 x2 x4 x3 p q := by
  unfold k2_pay1 entry act
  simp only [shapeCast_self]
  rw [if_neg (by decide)]
  have hd : dot_S10000x64_S64x1_S10000x1_1_0_0_1_n_n = DotDims.plain 10000 64 1 := rfl
  have h1 := Cert.LibPlainDot.matmul_zero_apply dot_S10000x64_S64x1_S10000x1_1_0_0_1_n_n hd none
    (truncf .bf16 x0 bitsLt_bf16_f32) (truncf .bf16 x2 bitsLt_bf16_f32) p q
  have h2 := Cert.LibPlainDot.matmul_zero_apply dot_S10000x64_S64x1_S10000x1_1_0_0_1_n_n hd none
    (truncf .bf16 x1 bitsLt_bf16_f32) (truncf .bf16 x4 bitsLt_bf16_f32) p q
  have h3 : broadcastTo S10000x1 x3 broadcasts_S1x1_S10000x1 (ix2 p q) = x3 (ix2 0 q) :=
    broadcastTo_apply x3 _ (ix2 p q) (ix2 0 q) (fun a => by match a with | ⟨0, _⟩ => rfl | ⟨1, _⟩ => show q.val = 0; have := q.isLt; omega)
  rw [addf_apply, addf_apply, h3]
  exact congrArg₂ (· + ·) (congrArg₂ (· + ·) h1 h2) rfl

/-- The body's payload of whole blocks is the dense step of the blocks. -/
theorem pay_eq (x0 x1 : Vec Ideal S10000x64 .f32) (x2 x4 : Vec Ideal S64x1 .f32) (x3 : Vec Ideal S1x1 .f32) :
    k2_pay1 (F := Ideal) x0 x1 x2 x4 x3 = dense false x0 x1 x2 x4 x3 := by
  funext j
  obtain ⟨p, q, rfl⟩ : ∃ (p : Fin 10000) (q : Fin 1), j = ix2 p q := ⟨j 0, j 1, eq_ix2 j⟩
  rw [pay_apply, dense_apply]

variable (V : (c : Dev nD) → (b : Ref sig .tc) → Buf (Elt Ideal) ((c : Thread nD τ).loc b))

/-- The launch's output array as one function of its operand arrays as the launch finds them: the dense step of the
    aggregated features, the node features, the two weight matrices and the bias row. -/
def G (c : Dev nD) : S100000x1.Idx → Elt Ideal .f32 :=
  dense false (V c main_v37 : S100000x64.Idx → Elt Ideal .f32) (V c main_v27 : S100000x64.Idx → Elt Ideal .f32)
    (V c main_arg7 : S64x1.Idx → Elt Ideal .f32) (V c main_arg9 : S64x1.Idx → Elt Ideal .f32) (V c main_v38 : S1x1.Idx → Elt Ideal .f32)

/-- The printed index maps over the grid: the two feature windows move with the output window along the rows and
    stay at column block 0; the weights and the bias stay at block (0, 0); the output's row block is at most 9. -/
theorem idx_facts : ∀ t : Fin cfg2.N,
    win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (1 : Fin 2) = 0 ∧ win2_5.index t (0 : Fin 2) ≤ 9 :=
  (by decide +kernel : ∀ t : Fin grid2.N, _)

/-- Every row block of the output is some point's. -/
theorem idx_onto : ∀ q0 : Fin 10, ∃ t : Fin cfg2.N, win2_5.index t = ![q0.val, 0] :=
  (by decide +kernel : ∀ q0 : Fin 10, ∃ t : Fin grid2.N, win2_5.index t = ![q0.val, 0])

/-- What point `t` writes back is block `t` of the dense step of the whole operand arrays: an entry of the dense step
    reads row p of the features, and row p of block `t` is row 10000·t + p of the array. -/
theorem flushed_eq (c : Dev nD) (t : Fin cfg2.N) :
    (dat2 V c).flushed 5 t = ((cfg2.win 5).blk t).view.read (Elt Ideal) (G V c) := by
  show (cfg2.win 5).cut (grid2.coords t) ((dat2 V c).after 5 t) = _
  rw [after2_5]
  unfold out2_5
  rw [View.canon_unit_zero hz]
  simp only [View.ld_unit_zero (S := S10000x64) hz, View.ld_unit_zero (S := S64x1) hz, View.ld_unit_zero (S := S1x1) hz]
  rw [pay_eq]
  obtain ⟨e00, e01, e10, e11, e20, e21, e30, e31, e40, e41, e51, e5⟩ := idx_facts t
  funext j
  show dense false (iblk2 V c 0 t : Vec Ideal S10000x64 .f32) (iblk2 V c 1 t : Vec Ideal S10000x64 .f32)
      (iblk2 V c 2 t : Vec Ideal S64x1 .f32) (iblk2 V c 4 t : Vec Ideal S64x1 .f32) (iblk2 V c 3 t : Vec Ideal S1x1 .f32) (j : S10000x1.Idx)
    = G V c (((cfg2.win 5).blk t).view.emb j)
  have e1 : (j : S10000x1.Idx) = ix2 (j 0) (j 1) := eq_ix2 _
  have e2 : (((cfg2.win 5).blk t).view.emb j : S100000x1.Idx)
      = ix2 ((((cfg2.win 5).blk t).view.emb j) 0) ((((cfg2.win 5).blk t).view.emb j) 1) := eq_ix2 _
  refine (congrArg (dense false _ _ _ _ _) e1).trans (Eq.trans ?_ (congrArg (G V c) e2).symm)
  unfold G
  have hj0 : (j 0).val < 10000 := (j 0).isLt
  have hj1 : (j 1).val < 1 := (j 1).isLt
  refine entry_congr (M := 10000) (K := 64) (N := 1) (M' := 100000) (N' := 1) false _ _ _ _ _ _ _ _ _ _ (j 0) (j 1)
    ((((cfg2.win 5).blk t).view.emb j) 0) ((((cfg2.win 5).blk t).view.emb j) 1) (fun k => ?_) (fun k => ?_) (fun k => ?_) (fun k => ?_) ?_
  · show V c main_v37 (((cfg2.win 0).blk t).view.emb (ix2 (j 0) k)) = V c main_v37 (ix2 ((((cfg2.win 5).blk t).view.emb j) 0) k)
    refine congrArg (V c main_v37) (funext fun a => Fin.ext ?_)
    match a with
    | ⟨0, _⟩ => show win2_0.index t (0 : Fin 2) * 10000 + 1 * (j 0).val = win2_5.index t (0 : Fin 2) * 10000 + 1 * (j 0).val; omega
    | ⟨1, _⟩ => show win2_0.index t (1 : Fin 2) * 64 + 1 * k.val = k.val; omega
  · show V c main_v27 (((cfg2.win 1).blk t).view.emb (ix2 (j 0) k)) = V c main_v27 (ix2 ((((cfg2.win 5).blk t).view.emb j) 0) k)
    refine congrArg (V c main_v27) (funext fun a => Fin.ext ?_)
    match a with
    | ⟨0, _⟩ => show win2_1.index t (0 : Fin 2) * 10000 + 1 * (j 0).val = win2_5.index t (0 : Fin 2) * 10000 + 1 * (j 0).val; omega
    | ⟨1, _⟩ => show win2_1.index t (1 : Fin 2) * 64 + 1 * k.val = k.val; omega
  · show V c main_arg7 (((cfg2.win 2).blk t).view.emb (ix2 k (j 1))) = V c main_arg7 (ix2 k ((((cfg2.win 5).blk t).view.emb j) 1))
    refine congrArg (V c main_arg7) (funext fun a => Fin.ext ?_)
    match a with
    | ⟨0, _⟩ => show win2_2.index t (0 : Fin 2) * 64 + 1 * k.val = k.val; omega
    | ⟨1, _⟩ => show win2_2.index t (1 : Fin 2) * 1 + 1 * (j 1).val = win2_5.index t (1 : Fin 2) * 1 + 1 * (j 1).val; omega
  · show V c main_arg9 (((cfg2.win 4).blk t).view.emb (ix2 k (j 1))) = V c main_arg9 (ix2 k ((((cfg2.win 5).blk t).view.emb j) 1))
    refine congrArg (V c main_arg9) (funext fun a => Fin.ext ?_)
    match a with
    | ⟨0, _⟩ => show win2_4.index t (0 : Fin 2) * 64 + 1 * k.val = k.val; omega
    | ⟨1, _⟩ => show win2_4.index t (1 : Fin 2) * 1 + 1 * (j 1).val = win2_5.index t (1 : Fin 2) * 1 + 1 * (j 1).val; omega
  · show V c main_v38 (((cfg2.win 3).blk t).view.emb (ix2 0 (j 1))) = V c main_v38 (ix2 0 ((((cfg2.win 5).blk t).view.emb j) 1))
    refine congrArg (V c main_v38) (funext fun a => Fin.ext ?_)
    match a with
    | ⟨0, _⟩ => show win2_3.index t (0 : Fin 2) * 1 + 1 * 0 = 0; omega
    | ⟨1, _⟩ => show win2_3.index t (1 : Fin 2) * 1 + 1 * (j 1).val = win2_5.index t (1 : Fin 2) * 1 + 1 * (j 1).val; omega

/-- An index of the output array lies in point `t`'s block iff each coordinate lies in the block's range on its axis. -/
theorem mem_blk (t : Fin cfg2.N) (i : S100000x1.Idx) :
    i ∈ ((cfg2.win 5).blk t).view.set ↔ ∀ a : Fin 2, win2_5.index t a * S10000x1.size a ≤ (i a).val ∧ (i a).val < win2_5.index t a * S10000x1.size a + S10000x1.size a := by
  show i ∈ ((View.whole main_v39).slice (win2_5.rect t)).set ↔ _
  rw [View.set_slice_whole, Rect.mem_set_unit]
  exact Iff.rfl

/-- Row `r` of the output is written back by the point whose block holds it, point `r / 10000`. -/
theorem cover (i : S100000x1.Idx) : ∃ t : Fin cfg2.N, (cfg2.win 5).flush t = true ∧ i ∈ ((cfg2.win 5).blk t).view.set := by
  have hi0 : (i 0).val < 100000 := (i 0).isLt
  have hi1 : (i 1).val < 1 := (i 1).isLt
  obtain ⟨t, ht⟩ := idx_onto ⟨(i 0).val / 10000, by omega⟩
  have q0 : win2_5.index t (0 : Fin 2) = (i 0).val / 10000 := congrFun ht 0
  have q1 : win2_5.index t (1 : Fin 2) = 0 := congrFun ht 1
  refine ⟨t, flush2_5 t, ?_⟩
  rw [mem_blk]
  intro a
  match a with
  | ⟨0, _⟩ => show win2_5.index t (0 : Fin 2) * 10000 ≤ (i 0).val ∧ (i 0).val < win2_5.index t (0 : Fin 2) * 10000 + 10000; omega
  | ⟨1, _⟩ => show win2_5.index t (1 : Fin 2) * 1 ≤ (i 1).val ∧ (i 1).val < win2_5.index t (1 : Fin 2) * 1 + 1; omega

/-- The output array after the launch: the dense step of the operand arrays as the launch found them. -/
theorem final (c : Dev nD) : (dat2 V c).arrAt 5 cfg2.N = G V c :=
  (dat2 V c).arrAt_eq_of_cover 5 (G V c) (fun t _ => flushed_eq V c t) cover

end Cert.KernelIdeal.Region2

end
-- ==== Proof.Seg.lean ====
/-
  The neighbour aggregation of one graph-convolution layer, which both programs compute on the host with the same
  operations: the edge list's two rows are the sources and the destinations; a negative source is wrapped by adding the
  node count; row s of the features is gathered for every edge (s, d) and the gathered rows are added into row d of a
  zero array.  The two programs print these operations with dimension records and side conditions of their own; the
  records have the same fields and the side conditions are propositions, so the two functions are one.
-/
import proofs.«139434_j40209483825155_1_alg».proof.KernelIdeal
import proofs.«139434_j40209483825155_1_alg».proof.ReferenceIdeal

noncomputable section

open Idealize.ShloMosaic

namespace Cert.KernelIdeal

variable {F : FTy → Type} [FloatOps F] [Facts]
open Facts₀ Facts

/-- The edge list's first row, the source node of every edge. -/
def srcOf (e : (⟨S2x1600000, .i32⟩ : BufTy).Contents (Elt F)) : (⟨S1600000, .i32⟩ : BufTy).Contents (Elt F) :=
  shapeCast _ (extractStridedSlice S1x1600000 ![0, 0] e slices_S2x1600000_S1x1600000_0_0) shapeCasts_S1x1600000_S1600000

/-- The edge list's second row, the destination node of every edge. -/
def dstOf (e : (⟨S2x1600000, .i32⟩ : BufTy).Contents (Elt F)) : (⟨S1600000, .i32⟩ : BufTy).Contents (Elt F) :=
  shapeCast _ (extractStridedSlice S1x1600000 ![1, 0] e slices_S2x1600000_S1x1600000_1_0) shapeCasts_S1x1600000_S1600000

/-- A negative source index counts from the end: 100000 is added to it. -/
def wrapNeg (s : (⟨S1600000, .i32⟩ : BufTy).Contents (Elt F)) : (⟨S1600000, .i32⟩ : BufTy).Contents (Elt F) :=
  select (cmpi .slt s (broadcastInDim S1600000 ![] bcast_S_S1600000 (constantI S_ 32 0#32)))
    (addi s (broadcastInDim S1600000 ![] bcast_S_S1600000 (constantI S_ 32 100000#32))) s

/-- The neighbour sum of 32-wide features: row s of `x` gathered for every edge (s, d) and added into row d of a zero array. -/
def seg32 (x : (⟨S100000x32, .f32⟩ : BufTy).Contents (Elt F)) (s d : (⟨S1600000, .i32⟩ : BufTy).Contents (Elt F)) :
    (⟨S100000x32, .f32⟩ : BufTy).Contents (Elt F) :=
  Host.scatterAdd scatter_S100000x32_S1600000x1_S1600000x32_1_0_0_1
    (broadcastInDim S100000x32 ![] bcast_S_S100000x32 (constant S_ .f32 0x00000000#32))
    (broadcastInDim S1600000x1 ![0] bcast_S1600000_S1600000x1_0 d)
    (Host.gather gather_S100000x32_S1600000x1_S1600000x32_1_0_n_n_0_1_132 x
      (broadcastInDim S1600000x1 ![0] bcast_S1600000_S1600000x1_0 (wrapNeg (F := F) s)))

/-- The neighbour sum of 64-wide features. -/
def seg64 (x : (⟨S100000x64, .f32⟩ : BufTy).Contents (Elt F)) (s d : (⟨S1600000, .i32⟩ : BufTy).Contents (Elt F)) :
    (⟨S100000x64, .f32⟩ : BufTy).Contents (Elt F) :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 d)
    (Host.gather gather_S100000x64_S1600000x1_S1600000x64_1_0_n_n_0_1_164 x
      (broadcastInDim S1600000x1 ![0] bcast_S1600000_S1600000x1_0 (wrapNeg (F := F) s)))

end Cert.KernelIdeal

namespace Cert.ReferenceIdeal

variable {F : FTy → Type} [FloatOps F] [Facts]
open Facts₀ Facts

/-- The edge list's first row, the source node of every edge. -/
def srcOf (e : (⟨S2x1600000, .i32⟩ : BufTy).Contents (Elt F)) : (⟨S1600000, .i32⟩ : BufTy).Contents (Elt F) :=
  shapeCast _ (extractStridedSlice S1x1600000 ![0, 0] e slices_S2x1600000_S1x1600000_0_0) shapeCasts_S1x1600000_S1600000

/-- The edge list's second row, the destination node of every edge. -/
def dstOf (e : (⟨S2x1600000, .i32⟩ : BufTy).Contents (Elt F)) : (⟨S1600000, .i32⟩ : BufTy).Contents (Elt F) :=
  shapeCast _ (extractStridedSlice S1x1600000 ![1, 0] e slices_S2x1600000_S1x1600000_1_0) shapeCasts_S1x1600000_S1600000

/-- A negative source index counts from the end: 100000 is added to it. -/
def wrapNeg (s : (⟨S1600000, .i32⟩ : BufTy).Contents (Elt F)) : (⟨S1600000, .i32⟩ : BufTy).Contents (Elt F) :=
  select (cmpi .slt s (broadcastInDim S1600000 ![] bcast_S_S1600000 (constantI S_ 32 0#32)))
    (addi s (broadcastInDim S1600000 ![] bcast_S_S1600000 (constantI S_ 32 100000#32))) s

/-- The neighbour sum of 32-wide features: row s of `x` gathered for every edge (s, d) and added into row d of a zero array. -/
def seg32 (x : (⟨S100000x32, .f32⟩ : BufTy).Contents (Elt F)) (s d : (⟨S1600000, .i32⟩ : BufTy).Contents (Elt F)) :
    (⟨S100000x32, .f32⟩ : BufTy).Contents (Elt F) :=
  Host.scatterAdd scatter_S100000x32_S1600000x1_S1600000x32_1_0_0_1
    (broadcastInDim S100000x32 ![] bcast_S_S100000x32 (constant S_ .f32 0x00000000#32))
    (broadcastInDim S1600000x1 ![0] bcast_S1600000_S1600000x1_0 d)
    (Host.gather gather_S100000x32_S1600000x1_S1600000x32_1_0_n_n_0_1_132 x
      (broadcastInDim S1600000x1 ![0] bcast_S1600000_S1600000x1_0 (wrapNeg (F := F) s)))

/-- The neighbour sum of 64-wide features. -/
def seg64 (x : (⟨S100000x64, .f32⟩ : BufTy).Contents (Elt F)) (s d : (⟨S1600000, .i32⟩ : BufTy).Contents (Elt F)) :
    (⟨S100000x64, .f32⟩ : BufTy).Contents (Elt F) :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 d)
    (Host.gather gather_S100000x64_S1600000x1_S1600000x64_1_0_n_n_0_1_164 x
      (broadcastInDim S1600000x1 ![0] bcast_S1600000_S1600000x1_0 (wrapNeg (F := F) s)))

end Cert.ReferenceIdeal

namespace Cert.SegEq

variable {F : FTy → Type} [FloatOps F] [hk : Cert.KernelIdeal.Facts] [hr : Cert.ReferenceIdeal.Facts]

theorem srcOf_eq (e : (⟨Cert.KernelIdeal.S2x1600000, .i32⟩ : BufTy).Contents (Elt F)) :
    Cert.KernelIdeal.srcOf (F := F) e = Cert.ReferenceIdeal.srcOf (F := F) e := rfl

theorem dstOf_eq (e : (⟨Cert.KernelIdeal.S2x1600000, .i32⟩ : BufTy).Contents (Elt F)) :
    Cert.KernelIdeal.dstOf (F := F) e = Cert.ReferenceIdeal.dstOf (F := F) e := rfl

theorem seg32_eq (x : (⟨Cert.KernelIdeal.S100000x32, .f32⟩ : BufTy).Contents (Elt F))
    (s d : (⟨Cert.KernelIdeal.S1600000, .i32⟩ : BufTy).Contents (Elt F)) :
    Cert.KernelIdeal.seg32 (F := F) x s d = Cert.ReferenceIdeal.seg32 (F := F) x s d := rfl

theorem seg64_eq (x : (⟨Cert.KernelIdeal.S100000x64, .f32⟩ : BufTy).Contents (Elt F))
    (s d : (⟨Cert.KernelIdeal.S1600000, .i32⟩ : BufTy).Contents (Elt F)) :
    Cert.KernelIdeal.seg64 (F := F) x s d = Cert.ReferenceIdeal.seg64 (F := F) x s d := rfl

end Cert.SegEq

end
-- ==== Proof.LibBiasRow.lean ====
/-
  The bias of a layer, a length-N vector, as the 1×N row both programs add to every row of a product.  The kernel reshapes
  the vector to 1×N on the host and the body broadcasts that row over its block; the reference broadcasts the vector to
  1×N and then to M×N.  Either way entry (p, q) of what is added is entry q of the vector.
-/
import Idealize.ShloMosaic.PureOps.Ideal.Laws
import Idealize.ShloMosaic.Lib.ValueIdx
import Idealize.ShloMosaic.Lib.Pipeline.Value
import Idealize.ShloMosaic.Lib.KernelVsHost

noncomputable section

namespace Cert.Row

open Idealize.ShloMosaic Idealize.ShloMosaic.ValueIdx

variable {M N : ℕ}

/-- A length-N vector as a 1×N row. -/
def rowOf (b : FVec Ideal ⟨1, ![N]⟩ .f32) : FVec Ideal ⟨2, ![1, N]⟩ .f32 := fun j => b (ix1 (j 1))

/-- The reshape of the vector to 1×N is that row. -/
theorem shapeCast_row (b : FVec Ideal ⟨1, ![N]⟩ .f32) (h : (⟨1, ![N]⟩ : Shape).ShapeCasts ⟨2, ![1, N]⟩) :
    shapeCast ⟨2, ![1, N]⟩ b h = rowOf b := by
  funext j
  refine (shapeCast_addUnit_apply ![N] b h j).trans ?_
  unfold rowOf
  exact congrArg b (funext fun a => by match a with | ⟨0, _⟩ => rfl)

/-- The two broadcasts of the vector, to 1×N and then to M×N, read at (p, q): the row at (0, q). -/
theorem bcast_row_apply (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = rowOf b (ix2 0 q) := by
  rw [broadcastInDim_oneRow_apply]
  refine broadcastInDim_apply ![1] h1 b (ix2 (0 : Fin 1) q) (ix1 q) (fun a => ?_)
  match a with
  | ⟨0, _⟩ =>
    show q.val = if N = 1 then 0 else q.val
    split_ifs with hN
    · have := q.isLt; omega
    · rfl

end Cert.Row

end
-- ==== Proof.KernelValue.lean ====
/-
  The idealized kernel's result as one function of its arguments.  @main alternates stretches of host operations with
  the three launches; the contents of the buffers at each boundary are read here one boundary at a time, from the launch
  memory forward: a stretch applies its operations to the contents before it, a launch leaves its output array at the
  dense step of its operand arrays (the three launch modules) and every other buffer as it was.  The neighbour sums, the
  reshaped biases and the three dense steps compose to the three-layer network `out`.
-/
import proofs.«139434_j40209483825155_1_alg».proof.Proof.Gen.KernelIdeal.Frame
import proofs.«139434_j40209483825155_1_alg».proof.Proof.Region0
import proofs.«139434_j40209483825155_1_alg».proof.Proof.Region1
import proofs.«139434_j40209483825155_1_alg».proof.Proof.Region2
import proofs.«139434_j40209483825155_1_alg».proof.Proof.Seg
import proofs.«139434_j40209483825155_1_alg».proof.Proof.LibDenseStep
import proofs.«139434_j40209483825155_1_alg».proof.Proof.LibBiasRow
import Idealize.ShloMosaic.Lib.StableHlo.Run

set_option maxRecDepth 16384

noncomputable section

namespace Cert.KernelIdeal.NetValue

open Idealize.ShloMosaic Idealize.ShloMosaic.TcCoe
open Idealize.SL.Sem
open Cert.KernelIdeal Cert.KernelIdeal.Gen Cert.Dense
open Cert.KernelIdeal.Facts₀ Cert.KernelIdeal.Facts

variable (m : (ℓ : Loc nD τ sig) → Buf (Elt Ideal) ℓ) (ρ : Dev nD → PrngReg)

/-- The first layer's output: the dense step, with activation, of the neighbour sum of the input features and the input
    features themselves. -/
def h1 (x0 : (⟨S100000x32, .f32⟩ : BufTy).Contents (Elt Ideal)) (x1 : (⟨S32x64, .f32⟩ : BufTy).Contents (Elt Ideal)) (x2 : (⟨S64, .f32⟩ : BufTy).Contents (Elt Ideal)) (x3 : (⟨S32x64, .f32⟩ : BufTy).Contents (Elt Ideal)) (e : (⟨S2x1600000, .i32⟩ : BufTy).Contents (Elt Ideal)) : (⟨S100000x64, .f32⟩ : BufTy).Contents (Elt Ideal) :=
  dense true (seg32 (F := Ideal) x0 (srcOf (F := Ideal) e) (dstOf (F := Ideal) e)) x0 x1 x3 (Cert.Row.rowOf x2)

/-- The second layer's output, from the first layer's. -/
def h2 (x0 : (⟨S100000x32, .f32⟩ : BufTy).Contents (Elt Ideal)) (x1 : (⟨S32x64, .f32⟩ : BufTy).Contents (Elt Ideal)) (x2 : (⟨S64, .f32⟩ : BufTy).Contents (Elt Ideal)) (x3 : (⟨S32x64, .f32⟩ : BufTy).Contents (Elt Ideal)) (x4 : (⟨S64x64, .f32⟩ : BufTy).Contents (Elt Ideal)) (x5 : (⟨S64, .f32⟩ : BufTy).Contents (Elt Ideal))
    (x6 : (⟨S64x64, .f32⟩ : BufTy).Contents (Elt Ideal)) (e : (⟨S2x1600000, .i32⟩ : BufTy).Contents (Elt Ideal)) : (⟨S100000x64, .f32⟩ : BufTy).Contents (Elt Ideal) :=
  dense true (seg64 (F := Ideal) (h1 x0 x1 x2 x3 e) (srcOf (F := Ideal) e) (dstOf (F := Ideal) e)) (h1 x0 x1 x2 x3 e) x4 x6 (Cert.Row.rowOf x5)

/-- The network's result: the third layer's dense step, without activation, of the second layer's output, its one column
    flattened to a vector. -/
def out (x0 : (⟨S100000x32, .f32⟩ : BufTy).Contents (Elt Ideal)) (x1 : (⟨S32x64, .f32⟩ : BufTy).Contents (Elt Ideal)) (x2 : (⟨S64, .f32⟩ : BufTy).Contents (Elt Ideal)) (x3 : (⟨S32x64, .f32⟩ : BufTy).Contents (Elt Ideal)) (x4 : (⟨S64x64, .f32⟩ : BufTy).Contents (Elt Ideal)) (x5 : (⟨S64, .f32⟩ : BufTy).Contents (Elt Ideal))
    (x6 : (⟨S64x64, .f32⟩ : BufTy).Contents (Elt Ideal)) (x7 : (⟨S64x1, .f32⟩ : BufTy).Contents (Elt Ideal)) (x8 : (⟨S1, .f32⟩ : BufTy).Contents (Elt Ideal)) (x9 : (⟨S64x1, .f32⟩ : BufTy).Contents (Elt Ideal)) (e : (⟨S2x1600000, .i32⟩ : BufTy).Contents (Elt Ideal)) : (⟨S100000, .f32⟩ : BufTy).Contents (Elt Ideal) :=
  shapeCast S100000 (dense false (seg64 (F := Ideal) (h2 x0 x1 x2 x3 x4 x5 x6 e) (srcOf (F := Ideal) e) (dstOf (F := Ideal) e))
    (h2 x0 x1 x2 x3 x4 x5 x6 e) x7 x9 (Cert.Row.rowOf x8)) Facts₀.shapeCasts_S100000x1_S100000

/-! ## After the first stretch of host operations -/

theorem s0_v1 (c : Dev nD) : W1 m ρ c (Proc.devRef .tc main_v1) = (srcOf (F := Ideal) (m ((c.tc : Thread nD τ).loc main_arg10))) := by
  show StableHlo.after hostOps0 (W0 m ρ c) (Proc.devRef .tc main_v1) = _
  dsimp only [hostOps0]
  after_results
  rfl

theorem s0_v3 (c : Dev nD) : W1 m ρ c (Proc.devRef .tc main_v3) = (dstOf (F := Ideal) (m ((c.tc : Thread nD τ).loc main_arg10))) := by
  show StableHlo.after hostOps0 (W0 m ρ c) (Proc.devRef .tc main_v3) = _
  dsimp only [hostOps0]
  after_results
  rfl

theorem s0_v13 (c : Dev nD) : W1 m ρ c (Proc.devRef .tc main_v13) = seg32 (F := Ideal) (m ((c.tc : Thread nD τ).loc main_arg0)) (srcOf (F := Ideal) (m ((c.tc : Thread nD τ).loc main_arg10))) (dstOf (F := Ideal) (m ((c.tc : Thread nD τ).loc main_arg10))) := by
  show StableHlo.after hostOps0 (W0 m ρ c) (Proc.devRef .tc main_v13) = _
  dsimp only [hostOps0]
  after_results
  rfl

theorem s0_v14 (c : Dev nD) : W1 m ρ c (Proc.devRef .tc main_v14) = Cert.Row.rowOf (m ((c.tc : Thread nD τ).loc main_arg2)) := by
  show StableHlo.after hostOps0 (W0 m ρ c) (Proc.devRef .tc main_v14) = _
  dsimp only [hostOps0]
  after_results
  exact Cert.Row.shapeCast_row _ _

theorem s0_arg0 (c : Dev nD) : W1 m ρ c (Proc.devRef .tc main_arg0) = (m ((c.tc : Thread nD τ).loc main_arg0)) := by
  show StableHlo.after hostOps0 (W0 m ρ c) (Proc.devRef .tc main_arg0) = _
  dsimp only [hostOps0]
  after_results
  try rfl

theorem s0_arg1 (c : Dev nD) : W1 m ρ c (Proc.devRef .tc main_arg1) = (m ((c.tc : Thread nD τ).loc main_arg1)) := by
  show StableHlo.after hostOps0 (W0 m ρ c) (Proc.devRef .tc main_arg1) = _
  dsimp only [hostOps0]
  after_results
  try rfl

theorem s0_arg3 (c : Dev nD) : W1 m ρ c (Proc.devRef .tc main_arg3) = (m ((c.tc : Thread nD τ).loc main_arg3)) := by
  show StableHlo.after hostOps0 (W0 m ρ c) (Proc.devRef .tc main_arg3) = _
  dsimp only [hostOps0]
  after_results
  try rfl

theorem s0_arg4 (c : Dev nD) : W1 m ρ c (Proc.devRef .tc main_arg4) = (m ((c.tc : Thread nD τ).loc main_arg4)) := by
  show StableHlo.after hostOps0 (W0 m ρ c) (Proc.devRef .tc main_arg4) = _
  dsimp only [hostOps0]
  after_results
  try rfl

theorem s0_arg5 (c : Dev nD) : W1 m ρ c (Proc.devRef .tc main_arg5) = (m ((c.tc : Thread nD τ).loc main_arg5)) := by
  show StableHlo.after hostOps0 (W0 m ρ c) (Proc.devRef .tc main_arg5) = _
  dsimp only [hostOps0]
  after_results
  try rfl

theorem s0_arg6 (c : Dev nD) : W1 m ρ c (Proc.devRef .tc main_arg6) = (m ((c.tc : Thread nD τ).loc main_arg6)) := by
  show StableHlo.after hostOps0 (W0 m ρ c) (Proc.devRef .tc main_arg6) = _
  dsimp only [hostOps0]
  after_results
  try rfl

theorem s0_arg7 (c : Dev nD) : W1 m ρ c (Proc.devRef .tc main_arg7) = (m ((c.tc : Thread nD τ).loc main_arg7)) := by
  show StableHlo.after hostOps0 (W0 m ρ c) (Proc.devRef .tc main_arg7) = _
  dsimp only [hostOps0]
  after_results
  try rfl

theorem s0_arg8 (c : Dev nD) : W1 m ρ c (Proc.devRef .tc main_arg8) = (m ((c.tc : Thread nD τ).loc main_arg8)) := by
  show StableHlo.after hostOps0 (W0 m ρ c) (Proc.devRef .tc main_arg8) = _
  dsimp only [hostOps0]
  after_results
  try rfl

theorem s0_arg9 (c : Dev nD) : W1 m ρ c (Proc.devRef .tc main_arg9) = (m ((c.tc : Thread nD τ).loc main_arg9)) := by
  show StableHlo.after hostOps0 (W0 m ρ c) (Proc.devRef .tc main_arg9) = _
  dsimp only [hostOps0]
  after_results
  try rfl

/-! ## After the first launch -/

theorem r0_v15 (c : Dev nD) : W2 m ρ c (Proc.devRef .tc main_v15) = (h1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg10))) := by
  refine (W2_arr m ρ c 5).trans ((Cert.KernelIdeal.Region0.final (V1 m ρ) c).trans ?_)
  unfold Cert.KernelIdeal.Region0.G h1
  show dense true (W1 m ρ c (Proc.devRef .tc main_v13)) (W1 m ρ c (Proc.devRef .tc main_arg0)) (W1 m ρ c (Proc.devRef .tc main_arg1))
    (W1 m ρ c (Proc.devRef .tc main_arg3)) (W1 m ρ c (Proc.devRef .tc main_v14)) = _
  rw [s0_v13 m ρ c, s0_arg0 m ρ c, s0_arg1 m ρ c, s0_arg3 m ρ c, s0_v14 m ρ c]

theorem r0_v1 (c : Dev nD) : W2 m ρ c (Proc.devRef .tc main_v1) = (srcOf (F := Ideal) (m ((c.tc : Thread nD τ).loc main_arg10))) :=
  (W2_of_ne m ρ c main_v1 (by decide)).trans (s0_v1 m ρ c)

theorem r0_v3 (c : Dev nD) : W2 m ρ c (Proc.devRef .tc main_v3) = (dstOf (F := Ideal) (m ((c.tc : Thread nD τ).loc main_arg10))) :=
  (W2_of_ne m ρ c main_v3 (by decide)).trans (s0_v3 m ρ c)

theorem r0_arg4 (c : Dev nD) : W2 m ρ c (Proc.devRef .tc main_arg4) = (m ((c.tc : Thread nD τ).loc main_arg4)) :=
  (W2_of_ne m ρ c main_arg4 (by decide)).trans (s0_arg4 m ρ c)

theorem r0_arg5 (c : Dev nD) : W2 m ρ c (Proc.devRef .tc main_arg5) = (m ((c.tc : Thread nD τ).loc main_arg5)) :=
  (W2_of_ne m ρ c main_arg5 (by decide)).trans (s0_arg5 m ρ c)

theorem r0_arg6 (c : Dev nD) : W2 m ρ c (Proc.devRef .tc main_arg6) = (m ((c.tc : Thread nD τ).loc main_arg6)) :=
  (W2_of_ne m ρ c main_arg6 (by decide)).trans (s0_arg6 m ρ c)

theorem r0_arg7 (c : Dev nD) : W2 m ρ c (Proc.devRef .tc main_arg7) = (m ((c.tc : Thread nD τ).loc main_arg7)) :=
  (W2_of_ne m ρ c main_arg7 (by decide)).trans (s0_arg7 m ρ c)

theorem r0_arg8 (c : Dev nD) : W2 m ρ c (Proc.devRef .tc main_arg8) = (m ((c.tc : Thread nD τ).loc main_arg8)) :=
  (W2_of_ne m ρ c main_arg8 (by decide)).trans (s0_arg8 m ρ c)

theorem r0_arg9 (c : Dev nD) : W2 m ρ c (Proc.devRef .tc main_arg9) = (m ((c.tc : Thread nD τ).loc main_arg9)) :=
  (W2_of_ne m ρ c main_arg9 (by decide)).trans (s0_arg9 m ρ c)

/-! ## After the second stretch of host operations -/

theorem s1_v25_raw (c : Dev nD) : W3 m ρ c (Proc.devRef .tc main_v25)
    = seg64 (F := Ideal) (W2 m ρ c (Proc.devRef .tc main_v15)) (W2 m ρ c (Proc.devRef .tc main_v1)) (W2 m ρ c (Proc.devRef .tc main_v3)) := by
  show StableHlo.after hostOps1 (W2 m ρ c) (Proc.devRef .tc main_v25) = _
  dsimp only [hostOps1]
  after_results
  rfl

theorem s1_v25 (c : Dev nD) : W3 m ρ c (Proc.devRef .tc main_v25) = seg64 (F := Ideal) (h1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg10))) (srcOf (F := Ideal) (m ((c.tc : Thread nD τ).loc main_arg10))) (dstOf (F := Ideal) (m ((c.tc : Thread nD τ).loc main_arg10))) := by
  rw [s1_v25_raw m ρ c, r0_v15 m ρ c, r0_v1 m ρ c, r0_v3 m ρ c]

theorem s1_v15 (c : Dev nD) : W3 m ρ c (Proc.devRef .tc main_v15) = (h1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg10))) := by
  show StableHlo.after hostOps1 (W2 m ρ c) (Proc.devRef .tc main_v15) = _
  dsimp only [hostOps1]
  after_results
  exact r0_v15 m ρ c

theorem s1_v26 (c : Dev nD) : W3 m ρ c (Proc.devRef .tc main_v26) = Cert.Row.rowOf (m ((c.tc : Thread nD τ).loc main_arg5)) := by
  show StableHlo.after hostOps1 (W2 m ρ c) (Proc.devRef .tc main_v26) = _
  dsimp only [hostOps1]
  after_results
  rw [r0_arg5 m ρ c]; exact Cert.Row.shapeCast_row _ _

theorem s1_v1 (c : Dev nD) : W3 m ρ c (Proc.devRef .tc main_v1) = (srcOf (F := Ideal) (m ((c.tc : Thread nD τ).loc main_arg10))) := by
  show StableHlo.after hostOps1 (W2 m ρ c) (Proc.devRef .tc main_v1) = _
  dsimp only [hostOps1]
  after_results
  exact r0_v1 m ρ c

theorem s1_v3 (c : Dev nD) : W3 m ρ c (Proc.devRef .tc main_v3) = (dstOf (F := Ideal) (m ((c.tc : Thread nD τ).loc main_arg10))) := by
  show StableHlo.after hostOps1 (W2 m ρ c) (Proc.devRef .tc main_v3) = _
  dsimp only [hostOps1]
  after_results
  exact r0_v3 m ρ c

theorem s1_arg4 (c : Dev nD) : W3 m ρ c (Proc.devRef .tc main_arg4) = (m ((c.tc : Thread nD τ).loc main_arg4)) := by
  show StableHlo.after hostOps1 (W2 m ρ c) (Proc.devRef .tc main_arg4) = _
  dsimp only [hostOps1]
  after_results
  exact r0_arg4 m ρ c

theorem s1_arg6 (c : Dev nD) : W3 m ρ c (Proc.devRef .tc main_arg6) = (m ((c.tc : Thread nD τ).loc main_arg6)) := by
  show StableHlo.after hostOps1 (W2 m ρ c) (Proc.devRef .tc main_arg6) = _
  dsimp only [hostOps1]
  after_results
  exact r0_arg6 m ρ c

theorem s1_arg7 (c : Dev nD) : W3 m ρ c (Proc.devRef .tc main_arg7) = (m ((c.tc : Thread nD τ).loc main_arg7)) := by
  show StableHlo.after hostOps1 (W2 m ρ c) (Proc.devRef .tc main_arg7) = _
  dsimp only [hostOps1]
  after_results
  exact r0_arg7 m ρ c

theorem s1_arg8 (c : Dev nD) : W3 m ρ c (Proc.devRef .tc main_arg8) = (m ((c.tc : Thread nD τ).loc main_arg8)) := by
  show StableHlo.after hostOps1 (W2 m ρ c) (Proc.devRef .tc main_arg8) = _
  dsimp only [hostOps1]
  after_results
  exact r0_arg8 m ρ c

theorem s1_arg9 (c : Dev nD) : W3 m ρ c (Proc.devRef .tc main_arg9) = (m ((c.tc : Thread nD τ).loc main_arg9)) := by
  show StableHlo.after hostOps1 (W2 m ρ c) (Proc.devRef .tc main_arg9) = _
  dsimp only [hostOps1]
  after_results
  exact r0_arg9 m ρ c

/-! ## After the second launch -/

theorem r1_v27 (c : Dev nD) : W4 m ρ c (Proc.devRef .tc main_v27) = (h2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg10))) := by
  refine (W4_arr m ρ c 5).trans ((Cert.KernelIdeal.Region1.final (V3 m ρ) c).trans ?_)
  unfold Cert.KernelIdeal.Region1.G h2
  show dense true (W3 m ρ c (Proc.devRef .tc main_v25)) (W3 m ρ c (Proc.devRef .tc main_v15)) (W3 m ρ c (Proc.devRef .tc main_arg4))
    (W3 m ρ c (Proc.devRef .tc main_arg6)) (W3 m ρ c (Proc.devRef .tc main_v26)) = _
  rw [s1_v25 m ρ c, s1_v15 m ρ c, s1_arg4 m ρ c, s1_arg6 m ρ c, s1_v26 m ρ c]

theorem r1_v1 (c : Dev nD) : W4 m ρ c (Proc.devRef .tc main_v1) = (srcOf (F := Ideal) (m ((c.tc : Thread nD τ).loc main_arg10))) :=
  (W4_of_ne m ρ c main_v1 (by decide)).trans (s1_v1 m ρ c)

theorem r1_v3 (c : Dev nD) : W4 m ρ c (Proc.devRef .tc main_v3) = (dstOf (F := Ideal) (m ((c.tc : Thread nD τ).loc main_arg10))) :=
  (W4_of_ne m ρ c main_v3 (by decide)).trans (s1_v3 m ρ c)

theorem r1_arg7 (c : Dev nD) : W4 m ρ c (Proc.devRef .tc main_arg7) = (m ((c.tc : Thread nD τ).loc main_arg7)) :=
  (W4_of_ne m ρ c main_arg7 (by decide)).trans (s1_arg7 m ρ c)

theorem r1_arg8 (c : Dev nD) : W4 m ρ c (Proc.devRef .tc main_arg8) = (m ((c.tc : Thread nD τ).loc main_arg8)) :=
  (W4_of_ne m ρ c main_arg8 (by decide)).trans (s1_arg8 m ρ c)

theorem r1_arg9 (c : Dev nD) : W4 m ρ c (Proc.devRef .tc main_arg9) = (m ((c.tc : Thread nD τ).loc main_arg9)) :=
  (W4_of_ne m ρ c main_arg9 (by decide)).trans (s1_arg9 m ρ c)

/-! ## After the third stretch of host operations -/

theorem s2_v37_raw (c : Dev nD) : W5 m ρ c (Proc.devRef .tc main_v37)
    = seg64 (F := Ideal) (W4 m ρ c (Proc.devRef .tc main_v27)) (W4 m ρ c (Proc.devRef .tc main_v1)) (W4 m ρ c (Proc.devRef .tc main_v3)) := by
  show StableHlo.after hostOps2 (W4 m ρ c) (Proc.devRef .tc main_v37) = _
  dsimp only [hostOps2]
  after_results
  rfl

theorem s2_v37 (c : Dev nD) : W5 m ρ c (Proc.devRef .tc main_v37) = seg64 (F := Ideal) (h2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg10))) (srcOf (F := Ideal) (m ((c.tc : Thread nD τ).loc main_arg10))) (dstOf (F := Ideal) (m ((c.tc : Thread nD τ).loc main_arg10))) := by
  rw [s2_v37_raw m ρ c, r1_v27 m ρ c, r1_v1 m ρ c, r1_v3 m ρ c]

theorem s2_v27 (c : Dev nD) : W5 m ρ c (Proc.devRef .tc main_v27) = (h2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg10))) := by
  show StableHlo.after hostOps2 (W4 m ρ c) (Proc.devRef .tc main_v27) = _
  dsimp only [hostOps2]
  after_results
  exact r1_v27 m ρ c

theorem s2_v38 (c : Dev nD) : W5 m ρ c (Proc.devRef .tc main_v38) = Cert.Row.rowOf (m ((c.tc : Thread nD τ).loc main_arg8)) := by
  show StableHlo.after hostOps2 (W4 m ρ c) (Proc.devRef .tc main_v38) = _
  dsimp only [hostOps2]
  after_results
  rw [r1_arg8 m ρ c]; exact Cert.Row.shapeCast_row _ _

theorem s2_arg7 (c : Dev nD) : W5 m ρ c (Proc.devRef .tc main_arg7) = (m ((c.tc : Thread nD τ).loc main_arg7)) := by
  show StableHlo.after hostOps2 (W4 m ρ c) (Proc.devRef .tc main_arg7) = _
  dsimp only [hostOps2]
  after_results
  exact r1_arg7 m ρ c

theorem s2_arg9 (c : Dev nD) : W5 m ρ c (Proc.devRef .tc main_arg9) = (m ((c.tc : Thread nD τ).loc main_arg9)) := by
  show StableHlo.after hostOps2 (W4 m ρ c) (Proc.devRef .tc main_arg9) = _
  dsimp only [hostOps2]
  after_results
  exact r1_arg9 m ρ c

/-! ## After the third launch, and the result -/

theorem r2_v39 (c : Dev nD) : W6 m ρ c (Proc.devRef .tc main_v39)
    = dense false (seg64 (F := Ideal) (h2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg10))) (srcOf (F := Ideal) (m ((c.tc : Thread nD τ).loc main_arg10))) (dstOf (F := Ideal) (m ((c.tc : Thread nD τ).loc main_arg10)))) (h2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg10))) (m ((c.tc : Thread nD τ).loc main_arg7)) (m ((c.tc : Thread nD τ).loc main_arg9)) (Cert.Row.rowOf (m ((c.tc : Thread nD τ).loc main_arg8))) := by
  refine (W6_arr m ρ c 5).trans ((Cert.KernelIdeal.Region2.final (V5 m ρ) c).trans ?_)
  unfold Cert.KernelIdeal.Region2.G
  show dense false (W5 m ρ c (Proc.devRef .tc main_v37)) (W5 m ρ c (Proc.devRef .tc main_v27)) (W5 m ρ c (Proc.devRef .tc main_arg7))
    (W5 m ρ c (Proc.devRef .tc main_arg9)) (W5 m ρ c (Proc.devRef .tc main_v38)) = _
  rw [s2_v37 m ρ c, s2_v27 m ρ c, s2_arg7 m ρ c, s2_arg9 m ρ c, s2_v38 m ρ c]

theorem result_raw (c : Dev nD) : W7 m ρ c (Proc.devRef .tc main_v40)
    = shapeCast S100000 (W6 m ρ c (Proc.devRef .tc main_v39) : S100000x1.Idx → Elt Ideal .f32) Facts₀.shapeCasts_S100000x1_S100000 := by
  show StableHlo.after hostOps3 (W6 m ρ c) (Proc.devRef .tc main_v40) = _
  dsimp only [hostOps3]
  after_results
  try rfl

/-- The result buffer at the end of @main: the network's result as a function of the arguments as launched. -/
theorem result (c : Dev nD) : W7 m ρ c (Proc.devRef .tc main_v40) = (out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) := by
  rw [result_raw m ρ c, r2_v39 m ρ c]
  rfl

end Cert.KernelIdeal.NetValue

end
-- ==== Proof.RefValue.lean ====
/-
  The reference's result as one function of its arguments, layer by layer.  Each layer adds the bias to the product of
  the neighbour sum with the first weight matrix, then adds the product of the features with the second weight matrix,
  and (in the first two layers) takes the maximum with zero.  Entry by entry that is the dense step of the same arrays:
  a host product is the plain sum over the contracted axis, a bias broadcast to 1×N and then to M×N is the bias row,
  and the order of the three summands does not matter over the extended reals.
-/
import proofs.«139434_j40209483825155_1_alg».proof.Proof.Gen.ReferenceIdeal.Run
import proofs.«139434_j40209483825155_1_alg».proof.Proof.Seg
import proofs.«139434_j40209483825155_1_alg».proof.Proof.LibDenseStep
import proofs.«139434_j40209483825155_1_alg».proof.Proof.LibBiasRow
import proofs.«139434_j40209483825155_1_alg».proof.Proof.LibPlainDot
import Idealize.ShloMosaic.Lib.Pipeline.Value
import Idealize.ShloMosaic.Lib.ValueIdx

set_option maxRecDepth 16384

noncomputable section

namespace Cert.ReferenceIdeal.NetValue

open Idealize.ShloMosaic Idealize.ShloMosaic.TcCoe Idealize.ShloMosaic.ValueIdx
open Idealize.SL.Sem
open Cert.ReferenceIdeal Cert.Dense
open Cert.ReferenceIdeal.Facts₀ Cert.ReferenceIdeal.Facts

/-- The first layer before its activation, in the reference's order: (agg·wrel + bias) + feat·wroot. -/
def lin32 (agg feat : FVec Ideal S100000x32 .f32) (wrel wroot : FVec Ideal S32x64 .f32) (b : FVec Ideal S64 .f32) : FVec Ideal S100000x64 .f32 :=
  addf (addf (Host.dotGeneral dot_S100000x32_S32x64_S100000x64_1_0_0_1_n_n none agg wrel)
      (broadcastInDim S100000x64 ![0, 1] bcast_S1x64_S100000x64_0_1 (broadcastInDim S1x64 ![1] bcast_S64_S1x64_1 b)))
    (Host.dotGeneral dot_S100000x32_S32x64_S100000x64_1_0_0_1_n_n none feat wroot)

/-- The second layer before its activation. -/
def lin64 (agg feat : FVec Ideal S100000x64 .f32) (wrel wroot : FVec Ideal S64x64 .f32) (b : FVec Ideal S64 .f32) : FVec Ideal S100000x64 .f32 :=
  addf (addf (Host.dotGeneral dot_S100000x64_S64x64_S100000x64_1_0_0_1_n_n none agg wrel)
      (broadcastInDim S100000x64 ![0, 1] bcast_S1x64_S100000x64_0_1 (broadcastInDim S1x64 ![1] bcast_S64_S1x64_1 b)))
    (Host.dotGeneral dot_S100000x64_S64x64_S100000x64_1_0_0_1_n_n none feat wroot)

/-- The third layer, which has no activation. -/
def lin1 (agg feat : FVec Ideal S100000x64 .f32) (wrel wroot : FVec Ideal S64x1 .f32) (b : FVec Ideal S1 .f32) : FVec Ideal S100000x1 .f32 :=
  addf (addf (Host.dotGeneral dot_S100000x64_S64x1_S100000x1_1_0_0_1_n_n none agg wrel)
      (broadcastInDim S100000x1 ![0, 1] bcast_S1x1_S100000x1_0_1 (broadcastInDim S1x1 ![1] bcast_S1_S1x1_1 b)))
    (Host.dotGeneral dot_S100000x64_S64x1_S100000x1_1_0_0_1_n_n none feat wroot)

/-- The activation of a 100000×64 array: the maximum with the zero array. -/
def relu (y : FVec Ideal S100000x64 .f32) : FVec Ideal S100000x64 .f32 :=
  maximumf y (broadcastInDim S100000x64 ![] bcast_S_S100000x64 (constant S_ .f32 0x00000000#32))

/-- The first layer's output. -/
def h1 (x0 : FVec Ideal S100000x32 .f32) (x1 : FVec Ideal S32x64 .f32) (x2 : FVec Ideal S64 .f32) (x3 : FVec Ideal S32x64 .f32) (e : (⟨S2x1600000, .i32⟩ : BufTy).Contents (Elt Ideal)) : FVec Ideal S100000x64 .f32 :=
  relu (lin32 (seg32 (F := Ideal) x0 (srcOf (F := Ideal) e) (dstOf (F := Ideal) e)) x0 x1 x3 x2)

/-- The second layer's output. -/
def h2 (x0 : FVec Ideal S100000x32 .f32) (x1 : FVec Ideal S32x64 .f32) (x2 : FVec Ideal S64 .f32) (x3 : FVec Ideal S32x64 .f32) (x4 : FVec Ideal S64x64 .f32) (x5 : FVec Ideal S64 .f32)
    (x6 : FVec Ideal S64x64 .f32) (e : (⟨S2x1600000, .i32⟩ : BufTy).Contents (Elt Ideal)) : FVec Ideal S100000x64 .f32 :=
  relu (lin64 (seg64 (F := Ideal) (h1 x0 x1 x2 x3 e) (srcOf (F := Ideal) e) (dstOf (F := Ideal) e)) (h1 x0 x1 x2 x3 e) x4 x6 x5)

/-- The reference's result: the third layer of the second layer's output, its one column flattened. -/
def out (x0 : FVec Ideal S100000x32 .f32) (x1 : FVec Ideal S32x64 .f32) (x2 : FVec Ideal S64 .f32) (x3 : FVec Ideal S32x64 .f32) (x4 : FVec Ideal S64x64 .f32) (x5 : FVec Ideal S64 .f32)
    (x6 : FVec Ideal S64x64 .f32) (x7 : FVec Ideal S64x1 .f32) (x8 : FVec Ideal S1 .f32) (x9 : FVec Ideal S64x1 .f32) (e : (⟨S2x1600000, .i32⟩ : BufTy).Contents (Elt Ideal)) : FVec Ideal S100000 .f32 :=
  shapeCast S100000 (lin1 (seg64 (F := Ideal) (h2 x0 x1 x2 x3 x4 x5 x6 e) (srcOf (F := Ideal) e) (dstOf (F := Ideal) e))
    (h2 x0 x1 x2 x3 x4 x5 x6 e) x7 x9 x8) shapeCasts_S100000x1_S100000

set_option maxRecDepth 100000 in
/-- The run's composed term for the result IS that function of the arguments: the same operations, named. -/
theorem res_eq (m : (ℓ : Loc nD τ sig) → Buf (Elt Ideal) ℓ) (c : Dev nD) :
    Cert.ReferenceIdeal.Value.res_main_v62 (F := Ideal) m c
      = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  rfl

/-- Entry by entry the activated reference step is the dense step: each `dot_general` is the plain sum over the contracted axis,
    the twice-broadcast bias is the bias row at (0, q), and the three summands are added in the reference's order. -/
theorem relu_lin32 (agg feat : FVec Ideal S100000x32 .f32) (wrel wroot : FVec Ideal S32x64 .f32) (b : FVec Ideal S64 .f32) :
    relu (lin32 agg feat wrel wroot b) = dense true agg feat wrel wroot (Cert.Row.rowOf b) := by
  funext j
  obtain ⟨p, q, rfl⟩ : ∃ (p : Fin 100000) (q : Fin 64), j = ix2 p q := ⟨j 0, j 1, eq_ix2 j⟩
  rw [dense_apply, ← entry_ref_order]
  unfold relu lin32 act
  have hd : dot_S100000x32_S32x64_S100000x64_1_0_0_1_n_n = DotDims.plain 100000 32 64 := rfl
  have h1 := Cert.LibPlainDot.dotGeneral_apply dot_S100000x32_S32x64_S100000x64_1_0_0_1_n_n hd none .single agg wrel p q
  have h2 := Cert.LibPlainDot.dotGeneral_apply dot_S100000x32_S32x64_S100000x64_1_0_0_1_n_n hd none .single feat wroot p q
  have h3 := Cert.Row.bcast_row_apply (M := 100000) b bcast_S64_S1x64_1 bcast_S1x64_S100000x64_0_1 p q
  rw [if_pos rfl, maximumf_apply, addf_apply, addf_apply]
  exact congrArg₂ max (congrArg₂ (· + ·) (congrArg₂ (· + ·) h1 h3) h2) rfl

/-- Entry by entry the activated reference step is the dense step: each `dot_general` is the plain sum over the contracted axis,
    the twice-broadcast bias is the bias row at (0, q), and the three summands are added in the reference's order. -/
theorem relu_lin64 (agg feat : FVec Ideal S100000x64 .f32) (wrel wroot : FVec Ideal S64x64 .f32) (b : FVec Ideal S64 .f32) :
    relu (lin64 agg feat wrel wroot b) = dense true agg feat wrel wroot (Cert.Row.rowOf b) := by
  funext j
  obtain ⟨p, q, rfl⟩ : ∃ (p : Fin 100000) (q : Fin 64), j = ix2 p q := ⟨j 0, j 1, eq_ix2 j⟩
  rw [dense_apply, ← entry_ref_order]
  unfold relu lin64 act
  have hd : dot_S100000x64_S64x64_S100000x64_1_0_0_1_n_n = DotDims.plain 100000 64 64 := rfl
  have h1 := Cert.LibPlainDot.dotGeneral_apply dot_S100000x64_S64x64_S100000x64_1_0_0_1_n_n hd none .single agg wrel p q
  have h2 := Cert.LibPlainDot.dotGeneral_apply dot_S100000x64_S64x64_S100000x64_1_0_0_1_n_n hd none .single feat wroot p q
  have h3 := Cert.Row.bcast_row_apply (M := 100000) b bcast_S64_S1x64_1 bcast_S1x64_S100000x64_0_1 p q
  rw [if_pos rfl, maximumf_apply, addf_apply, addf_apply]
  exact congrArg₂ max (congrArg₂ (· + ·) (congrArg₂ (· + ·) h1 h3) h2) rfl

/-- Entry by entry reference step is the dense step: each `dot_general` is the plain sum over the contracted axis,
    the twice-broadcast bias is the bias row at (0, q), and the three summands are added in the reference's order. -/
theorem lin1_eq (agg feat : FVec Ideal S100000x64 .f32) (wrel wroot : FVec Ideal S64x1 .f32) (b : FVec Ideal S1 .f32) :
    lin1 agg feat wrel wroot b = dense false agg feat wrel wroot (Cert.Row.rowOf b) := by
  funext j
  obtain ⟨p, q, rfl⟩ : ∃ (p : Fin 100000) (q : Fin 1), j = ix2 p q := ⟨j 0, j 1, eq_ix2 j⟩
  rw [dense_apply, ← entry_ref_order]
  unfold lin1 act
  have hd : dot_S100000x64_S64x1_S100000x1_1_0_0_1_n_n = DotDims.plain 100000 64 1 := rfl
  have h1 := Cert.LibPlainDot.dotGeneral_apply dot_S100000x64_S64x1_S100000x1_1_0_0_1_n_n hd none .single agg wrel p q
  have h2 := Cert.LibPlainDot.dotGeneral_apply dot_S100000x64_S64x1_S100000x1_1_0_0_1_n_n hd none .single feat wroot p q
  have h3 := Cert.Row.bcast_row_apply (M := 100000) b bcast_S1_S1x1_1 bcast_S1x1_S100000x1_0_1 p q
  rw [if_neg (by decide), addf_apply, addf_apply]
  exact congrArg₂ (· + ·) (congrArg₂ (· + ·) h1 h3) h2

end Cert.ReferenceIdeal.NetValue

end
-- ==== Proof.Bridge.lean ====
/-
  The two programs compute one function.  Layer by layer: the reference's activated step is the dense step of the same
  arrays (the reference module), the neighbour sums of the two programs are one function (the aggregation module), and the
  kernel's launches leave the dense steps (the kernel's value module); so the first layers' outputs agree, hence the
  second layers', hence the results.
-/
import proofs.«139434_j40209483825155_1_alg».proof.Proof.KernelValue
import proofs.«139434_j40209483825155_1_alg».proof.Proof.RefValue

noncomputable section

namespace Cert.Bridge

open Idealize.ShloMosaic

variable [hr : Cert.ReferenceIdeal.Facts]

/-- The first layer's output is the same array in both programs. -/
theorem h1_eq (x0 : FVec Ideal Cert.KernelIdeal.S100000x32 .f32) (x1 : FVec Ideal Cert.KernelIdeal.S32x64 .f32) (x2 : FVec Ideal Cert.KernelIdeal.S64 .f32) (x3 : FVec Ideal Cert.KernelIdeal.S32x64 .f32) (e : (⟨Cert.KernelIdeal.S2x1600000, .i32⟩ : BufTy).Contents (Elt Ideal)) :
    Cert.KernelIdeal.NetValue.h1 x0 x1 x2 x3 e = Cert.ReferenceIdeal.NetValue.h1 x0 x1 x2 x3 e := by
  unfold Cert.KernelIdeal.NetValue.h1 Cert.ReferenceIdeal.NetValue.h1
  rw [Cert.ReferenceIdeal.NetValue.relu_lin32, Cert.SegEq.seg32_eq, Cert.SegEq.srcOf_eq, Cert.SegEq.dstOf_eq]

/-- The second layer's output is the same array in both programs. -/
theorem h2_eq (x0 : FVec Ideal Cert.KernelIdeal.S100000x32 .f32) (x1 : FVec Ideal Cert.KernelIdeal.S32x64 .f32) (x2 : FVec Ideal Cert.KernelIdeal.S64 .f32) (x3 : FVec Ideal Cert.KernelIdeal.S32x64 .f32) (x4 : FVec Ideal Cert.KernelIdeal.S64x64 .f32)
    (x5 : FVec Ideal Cert.KernelIdeal.S64 .f32) (x6 : FVec Ideal Cert.KernelIdeal.S64x64 .f32) (e : (⟨Cert.KernelIdeal.S2x1600000, .i32⟩ : BufTy).Contents (Elt Ideal)) :
    Cert.KernelIdeal.NetValue.h2 x0 x1 x2 x3 x4 x5 x6 e = Cert.ReferenceIdeal.NetValue.h2 x0 x1 x2 x3 x4 x5 x6 e := by
  unfold Cert.KernelIdeal.NetValue.h2 Cert.ReferenceIdeal.NetValue.h2
  rw [Cert.ReferenceIdeal.NetValue.relu_lin64, h1_eq, Cert.SegEq.seg64_eq, Cert.SegEq.srcOf_eq, Cert.SegEq.dstOf_eq]

/-- The results are the same vector. -/
theorem out_eq (x0 : FVec Ideal Cert.KernelIdeal.S100000x32 .f32) (x1 : FVec Ideal Cert.KernelIdeal.S32x64 .f32) (x2 : FVec Ideal Cert.KernelIdeal.S64 .f32) (x3 : FVec Ideal Cert.KernelIdeal.S32x64 .f32) (x4 : FVec Ideal Cert.KernelIdeal.S64x64 .f32)
    (x5 : FVec Ideal Cert.KernelIdeal.S64 .f32) (x6 : FVec Ideal Cert.KernelIdeal.S64x64 .f32) (x7 : FVec Ideal Cert.KernelIdeal.S64x1 .f32) (x8 : FVec Ideal Cert.KernelIdeal.S1 .f32) (x9 : FVec Ideal Cert.KernelIdeal.S64x1 .f32) (e : (⟨Cert.KernelIdeal.S2x1600000, .i32⟩ : BufTy).Contents (Elt Ideal)) :
    Cert.KernelIdeal.NetValue.out x0 x1 x2 x3 x4 x5 x6 x7 x8 x9 e = Cert.ReferenceIdeal.NetValue.out x0 x1 x2 x3 x4 x5 x6 x7 x8 x9 e := by
  unfold Cert.KernelIdeal.NetValue.out Cert.ReferenceIdeal.NetValue.out
  rw [Cert.ReferenceIdeal.NetValue.lin1_eq, h2_eq, Cert.SegEq.seg64_eq, Cert.SegEq.srcOf_eq, Cert.SegEq.dstOf_eq]

end Cert.Bridge

end
-- ==== Proof.lean ====
/-
  A three-layer graph convolution over 100000 nodes and 1600000 edges, the kernel against its jnp reference, over the
  extended reals.

  Each layer first sums, for every node, the features of its in-neighbours (a gather of the source rows and a
  scatter-add into the destination rows; both programs do this on the host with the same operations), then applies the
  dense step  out = agg·W_rel + feat·W_root + b  (followed, in the first two layers, by the maximum with zero); the last
  layer's single column is flattened to a vector.  The kernel runs the dense step in a launch over ten row blocks of
  10000 nodes, feeding the two products to the matrix unit in a narrower float format and adding the bias last; the
  reference adds the bias to the first product and the second product last.  Over the extended reals a change of format
  is the identity, a product into a zero accumulator and the host's product are both the plain sum over the contracted
  axis, and addition is commutative and associative also at the infinities, so the two dense steps are one function and
  no finiteness of the inputs is needed.  The ten blocks tile the rows, so each launch leaves the dense step of its whole
  operand arrays; composing the three layers gives equal results.

  The ideal pass rewrote nothing, so the kernel's idealization is its own text read at the ideal instance.
-/
import proofs.«139434_j40209483825155_1_alg».proof.Defs
import proofs.«139434_j40209483825155_1_alg».proof.Proof.Gen.Kernel
import proofs.«139434_j40209483825155_1_alg».proof.Proof.Gen.Kernel.Skeleton
import proofs.«139434_j40209483825155_1_alg».proof.Proof.Gen.Kernel.Launch
import proofs.«139434_j40209483825155_1_alg».proof.Proof.Gen.Kernel.Points
import proofs.«139434_j40209483825155_1_alg».proof.Proof.Gen.Kernel.Frame
import proofs.«139434_j40209483825155_1_alg».proof.Proof.Gen.KernelIdeal
import proofs.«139434_j40209483825155_1_alg».proof.Proof.Gen.KernelIdeal.Skeleton
import proofs.«139434_j40209483825155_1_alg».proof.Proof.Gen.KernelIdeal.Launch
import proofs.«139434_j40209483825155_1_alg».proof.Proof.Gen.KernelIdeal.Points
import proofs.«139434_j40209483825155_1_alg».proof.Proof.Gen.KernelIdeal.Frame
import proofs.«139434_j40209483825155_1_alg».proof.Proof.Gen.ReferenceIdeal
import proofs.«139434_j40209483825155_1_alg».proof.Proof.Gen.Pre_finite_inputs
import proofs.«139434_j40209483825155_1_alg».proof.Proof.Gen.ReferenceIdeal.Run
import proofs.«139434_j40209483825155_1_alg».proof.Proof.KernelRun
import proofs.«139434_j40209483825155_1_alg».proof.Proof.KernelValue
import proofs.«139434_j40209483825155_1_alg».proof.Proof.RefValue
import proofs.«139434_j40209483825155_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs to the end without a fault and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the arguments both programs end with the three-layer network of the arguments in their
    result buffers: the kernel by its launches' dense steps, the reference by its run's term read layer by layer, and the
    two networks are one function. -/
theorem algebraic : Cert.algebraic_KernelIdeal_ReferenceIdeal := by
  intro m ρ m' ρ' _ hagree
  refine ⟨fun c => Cert.KernelIdeal.NetValue.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.NetValue.result m ρ c), (h c).2⟩)
      (Cert.KernelIdeal.RunValue.run_named m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9, a10⟩ := hagree c
    rw [Cert.ReferenceIdeal.NetValue.res_eq, a0, a1, a2, a3, a4, a5, a6, a7, a8, a9, a10]
    exact (Cert.Bridge.out_eq _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
